-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩

abbrev nBuf : Space → Nat
  | .hbm => 105
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .f32⟩
  | .hbm, ⟨23, _⟩ => ⟨S1600000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S100000, .f32⟩
  | .hbm, ⟨50, _⟩ => ⟨S100000x1, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S100000x64, .f32⟩
  | .hbm, ⟨87, _⟩ => ⟨S100000x40, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x40, .f32⟩
  | .hbm, ⟨97, _⟩ => ⟨S1600000x40, .f32⟩
  | .hbm, ⟨98, _⟩ => ⟨S1600000x40, .f32⟩
  | .hbm, ⟨99, _⟩ => ⟨S_, .f32⟩
  | .hbm, ⟨100, _⟩ => ⟨S100000x40, .f32⟩
  | .hbm, ⟨101, _⟩ => ⟨S1600000x1, .i32⟩
  | .hbm, ⟨102, _⟩ => ⟨S100000x40, .f32⟩
  | .hbm, ⟨103, _⟩ => ⟨S1x40, .f32⟩
  | .hbm, ⟨104, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x40, .f32⟩
  | .local _ .vmem, ⟨25, _⟩ => ⟨S10000x40, .f32⟩
  | .local _ .vmem, ⟨26, _⟩ => ⟨S10000x40, .f32⟩
  | .local _ .vmem, ⟨27, _⟩ => ⟨S10000x40, .f32⟩
  | .local _ .vmem, ⟨28, _⟩ => ⟨S10000x40, .f32⟩
  | .local _ .vmem, ⟨29, _⟩ => ⟨S10000x40, .f32⟩
  | .local _ .vmem, ⟨30, _⟩ => ⟨S10000x40, .f32⟩
  | .local _ .vmem, ⟨31, _⟩ => ⟨S10000x1, .f32⟩
  | .local _ .vmem, ⟨32, _⟩ => ⟨S10000x1, .f32⟩
  | .local _ .vmem, ⟨33, _⟩ => ⟨S1x40, .f32⟩
  | .local _ .vmem, ⟨34, _⟩ => ⟨S10000x40, .f32⟩
  | .local _ .vmem, ⟨35, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reducesTo_S100000x64_S64_d0 : S100000x64.ReducesTo [0] S64
  h_S_ : 0 < S_.numel
  bcast_S_S64 : S_.BroadcastsInDim S64 (![] : Fin 0 → Fin S64.rank)
  bcast_S1x64_S100000x64_0_1 : S1x64.BroadcastsInDim S100000x64 (![0, 1] : Fin 2 → Fin S100000x64.rank)
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  broadcasts_S10000x1_S10000x40 : S10000x1.Broadcasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x40.size a ≤ S100000x40.size a
  hwx4_0 : ∀ i : grid4.Coords, EltTy.bits .f32 = 32 ∨ (Rect.block (s := S100000x40) S10000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x40.size a ≤ S100000x40.size a
  hwx4_1 : ∀ i : grid4.Coords, EltTy.bits .f32 = 32 ∨ (Rect.block (s := S100000x40) S10000x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x40.size a ≤ S100000x40.size a
  hwx4_4 : ∀ i : grid4.Coords, EltTy.bits .f32 = 32 ∨ (Rect.block (s := S100000x40) S10000x40.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S10000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S10000x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S10000x40.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S_, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S100000x64, .f32⟩
  | 82 => ⟨S_, .f32⟩
  | 83 => ⟨S64, .f32⟩
  | 84 => ⟨S_, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S_, .f32⟩
  | 91 => ⟨S64, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x40, .f32⟩
  | 107 => ⟨S_, .f32⟩
  | 108 => ⟨S100000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S_, .f32⟩
  | 118 => ⟨S1600000, .f32⟩
  | 119 => ⟨S100000, .f32⟩
  | 120 => ⟨S_, .f32⟩
  | 121 => ⟨S100000, .f32⟩
  | 122 => ⟨S100000, .f32⟩
  | 123 => ⟨S100000, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x40, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .f32⟩
  | 23 => ⟨S1600000, .f32⟩
  | 24 => ⟨S1600000x1, .f32⟩
  | 25 => ⟨S1600000x40, .f32⟩
  | 26 => ⟨S1600000x40, .f32⟩
  | 27 => ⟨S_, .f32⟩
  | 28 => ⟨S100000x40, .f32⟩
  | 29 => ⟨S1600000x1, .i32⟩
  | 30 => ⟨S100000x40, .f32⟩
  | 31 => ⟨S100000, .f32⟩
  | 32 => ⟨S100000x1, .f32⟩
  | 33 => ⟨S100000x40, .f32⟩
  | 34 => ⟨S100000x40, .f32⟩
  | 35 => ⟨S100000x40, .f32⟩
  | 36 => ⟨S1x40, .f32⟩
  | 37 => ⟨S100000x40, .f32⟩
  | 38 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call0_cst : Ref sig .tc := ⟨.hbm, 103, rfl⟩
abbrev main_call0_v0 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_20 : Ref sig .tc := ⟨.hbm, 124, rfl⟩
abbrev main_v92 : Ref sig .tc := ⟨.hbm, 125, rfl⟩
abbrev main_v93 : Ref sig .tc := ⟨.hbm, 126, rfl⟩
abbrev main_c_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_22 : Ref sig .tc := ⟨.hbm, 133, rfl⟩
abbrev main_v99 : Ref sig .tc := ⟨.hbm, 134, rfl⟩
abbrev main_v100 : Ref sig .tc := ⟨.hbm, 135, rfl⟩
abbrev main_c_23 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_24 : Ref sig .tc := ⟨.hbm, 142, rfl⟩
abbrev main_v106 : Ref sig .tc := ⟨.hbm, 143, rfl⟩
abbrev main_v107 : Ref sig .tc := ⟨.hbm, 144, rfl⟩
abbrev main_c_25 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_26 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named.

  The generated frame proof runs @main segment by segment — a stretch of host operations, then a region, and so on — and
  keeps, at each boundary, the contents of every buffer as a fold from the launch memory (`Gen.W0` … `Gen.W9`). Its last
  step reads the final state against the last boundary's contents `Gen.W9` and keeps only the argument arrays. Here the
  same run is read once more with one buffer added: the result array `main_v77` ends holding `Gen.W9` at that buffer.
  What that is, as a function of the arguments, is the business of the value modules.
-/
import proofs.«122838_j80676665688552_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and the argument arrays as launched. -/
theorem run_result : θ_run defs (onTc (τ := τ) (main (F := F))) ⟨m, fun _ => 0, ρ⟩ (fun r => ∀ c : Dev nD,
      r.2.mem ((c.tc : Thread nD τ).loc main_v77) = W9 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v77 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.LibGcnLayer.lean ====
/-
  The three dense array operations of a two-layer graph convolution with batch normalisation, entry by entry over the
  extended reals, generic in the extents.

  * `matProd x w`: the matrix product; entry (p, c) is the sum over k of x(p, k) · w(k, c).
  * `combine agg h d b`: the layer's output from the aggregated neighbour messages `agg`, the node's own transformed
    features `h`, the one-column array `d` of self-loop coefficients (1 / degree) and the one-row bias `b`;
    entry (p, q) is (agg(p, q) + h(p, q) · d(p)) + b(q).
  * `normRelu x mean var gamma beta eps`: batch normalisation with given per-column mean and variance (one-row arrays),
    scale and shift, followed by the maximum with zero; entry (p, q) is
    max((((x(p, q) − mean(q)) · rsqrt(var(q) + eps)) · gamma(q)) + beta(q), 0).

  Nothing here needs an entry to be finite: the functions are spelt with the same grouping of the same operations as the
  programs they describe, so each later equation is an identity of terms, not an algebraic law.
-/
import Idealize.ShloMosaic.PureOps.Ideal.Laws
import Idealize.ShloMosaic.Lib.ValueIdx

noncomputable section

namespace Cert.LibGcnLayer

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Aggregated messages, plus the node's own features scaled by its self-loop coefficient, plus the bias. -/
def combine (agg h : FVec Ideal ⟨2, ![A, B]⟩ .f32) (d : FVec Ideal ⟨2, ![A, 1]⟩ .f32) (b : FVec Ideal ⟨2, ![1, B]⟩ .f32) :
    FVec Ideal ⟨2, ![A, B]⟩ .f32 :=
  fun i => (agg i + h i * d (ix2 (i 0) (0 : Fin 1))) + b (ix2 (0 : Fin 1) (i 1))

/-- Normalisation by a given per-column mean and variance, scale and shift, then the maximum with zero. -/
def normRelu (x : FVec Ideal ⟨2, ![A, B]⟩ .f32) (mean var gamma beta : FVec Ideal ⟨2, ![1, B]⟩ .f32) (eps : EReal) :
    FVec Ideal ⟨2, ![A, B]⟩ .f32 :=
  fun i => max ((((x i - mean (ix2 (0 : Fin 1) (i 1))) * Ideal.rsqrt (var (ix2 (0 : Fin 1) (i 1)) + eps))
      * gamma (ix2 (0 : Fin 1) (i 1))) + beta (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem combine_apply (agg h : FVec Ideal ⟨2, ![A, B]⟩ .f32) (d : FVec Ideal ⟨2, ![A, 1]⟩ .f32)
    (b : FVec Ideal ⟨2, ![1, B]⟩ .f32) (p : Fin A) (q : Fin B) :
    combine agg h d b (ix2 p q) = (agg (ix2 p q) + h (ix2 p q) * d (ix2 p (0 : Fin 1))) + b (ix2 (0 : Fin 1) q) := rfl

theorem normRelu_apply (x : FVec Ideal ⟨2, ![A, B]⟩ .f32) (mean var gamma beta : FVec Ideal ⟨2, ![1, B]⟩ .f32) (eps : EReal)
    (p : Fin A) (q : Fin B) :
    normRelu x mean var gamma beta eps (ix2 p q)
      = max ((((x (ix2 p q) - mean (ix2 (0 : Fin 1) q)) * Ideal.rsqrt (var (ix2 (0 : Fin 1) q) + eps))
          * gamma (ix2 (0 : Fin 1) q)) + beta (ix2 (0 : Fin 1) q)) (Ideal.ofBits .f32 0x00000000#32) := rfl

end Cert.LibGcnLayer

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«122838_j80676665688552_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.TileDense.lean ====
/-
  The two dense regions: each leaves its output array holding the matrix product of its input arrays.

  A dense region's grid has ten points; point t is handed rows 10000·t … 10000·t + 9999 of the left array (a block of
  10000 rows, all columns) and the whole weight matrix, and writes back the same rows of the output. The body rounds
  both operands to a shorter float format — the identity on the extended reals — and contracts the block's second axis
  against the weights' first into a zero accumulator, so entry (p, q) of the block it stores is the sum over k of
  block(p, k) · weights(k, q). Row p of block t is row 10000·t + p of the array, so the block written back is block t
  of the whole product, and the ten blocks tile the output array.
-/
import proofs.«122838_j80676665688552_1_alg».proof.Proof.Gen.KernelIdeal.Frame
import proofs.«122838_j80676665688552_1_alg».proof.Proof.LibGcnLayer
import proofs.«122838_j80676665688552_1_alg».proof.Proof.LibPlainDot
import proofs.«122838_j80676665688552_1_alg».proof.Proof.LibPlainDotFormats
import Idealize.ShloMosaic.Lib.Pipeline.Value
import Idealize.ShloMosaic.Lib.ValueIdx
import Idealize.ShloMosaic.Lib.ValueLayout

set_option maxRecDepth 16384

noncomputable section

namespace Cert.KernelIdeal.Tiles

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- A block's offset inside its own buffer is zero on both axes. -/
theorem dense_hz : (![0, 0] : Fin 2 → Nat) = fun _ => 0 := funext fun a => by fin_cases a <;> rfl

/-! ## Region 0: x · W1 -/

/-- The region's contraction is a plain one: the second axis of the [10000, 128] block against the first axis of the
    [128, 64] weights. -/
theorem plain0 : Cert.LibPlainDot.Plain dot_S10000x128_S128x64_S10000x64_1_0_0_1_n_n := ⟨rfl, rfl, rfl, rfl, rfl, rfl⟩

/-- What the body stores at entry j of its block: the sum over k of the row block's (j₀, k) times the weights' (k, j₁)
    (the operands' rounding to a shorter format is the identity on the extended reals). -/
theorem pay0_apply (x0 : Vec Ideal S10000x128 .f32) (x1 : Vec Ideal S128x64 .f32) (j : S10000x64.Idx) :
    k0_pay1 (F := Ideal) x0 x1 j = ∑ k : Fin 128, x0 (ix2 (j 0) k) * x1 (ix2 k (j 1)) := by
  obtain ⟨p, q, rfl⟩ : ∃ (p : Fin 10000) (q : Fin 64), j = ix2 p q := ⟨j 0, j 1, eq_ix2 j⟩
  unfold k0_pay1
  exact plain0.matmul_zero_apply_formats none (truncf .bf16 x0 bitsLt_bf16_f32) (truncf .bf16 x1 bitsLt_bf16_f32) p q

/-- The printed index maps over the grid: the row block and the output block of point t are block t along the rows, the
    weights' block is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the matrix product of the two arrays as the region finds them: entry (p, q)
    of the block is entry (10000·t + p, q) of the product, and row 10000·t + p of the left array is row p of its block. -/
theorem flushed0_eq (c : Dev nD) (t : Fin cfg0.N) :
    (dat0 (F := Ideal) V c).flushed 2 t
      = ((cfg0.win 2).blk t).view.read (Elt Ideal)
          (Cert.LibGcnLayer.matProd (A := 100000) (K := 128) (B := 64) (V c main_arg0) (V c main_arg2)) := by
  show (cfg0.win 2).cut (grid0.coords t) ((dat0 V c).after 2 t) = _
  rw [after0_2]
  unfold out0_2
  rw [View.canon_unit_zero dense_hz]
  simp only [View.ld_unit_zero (S := S10000x128) dense_hz, View.ld_unit_zero (S := S128x64) dense_hz]
  obtain ⟨e0, e1, e2, e3, e4, e5⟩ := idx_facts0 t
  funext j
  show k0_pay1 (F := Ideal) (iblk0 V c 0 t) (iblk0 V c 1 t) j
    = Cert.LibGcnLayer.matProd (A := 100000) (K := 128) (B := 64) (V c main_arg0) (V c main_arg2) (((cfg0.win 2).blk t).view.emb j)
  refine (pay0_apply (iblk0 V c 0 t) (iblk0 V c 1 t) j).trans ?_
  unfold Cert.LibGcnLayer.matProd
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hl, hr]

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The ten row blocks cover the output array: row r is in block r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0 leaves its output array holding the matrix product of its two input arrays. -/
theorem dense0_array (c : Dev nD) :
    (dat0 (F := Ideal) V c).arrAt 2 cfg0.N
      = Cert.LibGcnLayer.matProd (A := 100000) (K := 128) (B := 64) (V c main_arg0) (V c main_arg2) :=
  (dat0 (F := Ideal) V c).arrAt_eq_of_cover 2 _ (fun t _ => flushed0_eq V c t) (cover0)

/-! ## Region 3: h · W2 -/

/-- The region's contraction is a plain one: the second axis of the [10000, 64] block against the first axis of the
    [64, 40] weights. -/
theorem plain3 : Cert.LibPlainDot.Plain dot_S10000x64_S64x40_S10000x40_1_0_0_1_n_n := ⟨rfl, rfl, rfl, rfl, rfl, rfl⟩

/-- What the body stores at entry j of its block: the sum over k of the row block's (j₀, k) times the weights' (k, j₁)
    (the operands' rounding to a shorter format is the identity on the extended reals). -/
theorem pay3_apply (x0 : Vec Ideal S10000x64 .f32) (x1 : Vec Ideal S64x40 .f32) (j : S10000x40.Idx) :
    k3_pay1 (F := Ideal) x0 x1 j = ∑ k : Fin 64, x0 (ix2 (j 0) k) * x1 (ix2 k (j 1)) := by
  obtain ⟨p, q, rfl⟩ : ∃ (p : Fin 10000) (q : Fin 40), j = ix2 p q := ⟨j 0, j 1, eq_ix2 j⟩
  unfold k3_pay1
  rw [shapeCast_self]
  exact plain3.matmul_zero_apply_formats none (truncf .bf16 x0 bitsLt_bf16_f32) (truncf .bf16 x1 bitsLt_bf16_f32) p q

/-- The printed index maps over the grid: the row block and the output block of point t are block t along the rows, the
    weights' block is the whole array at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- What point t writes back is block t of the matrix product of the two arrays as the region finds them: entry (p, q)
    of the block is entry (10000·t + p, q) of the product, and row 10000·t + p of the left array is row p of its block. -/
theorem flushed3_eq (c : Dev nD) (t : Fin cfg3.N) :
    (dat3 (F := Ideal) V c).flushed 2 t
      = ((cfg3.win 2).blk t).view.read (Elt Ideal)
          (Cert.LibGcnLayer.matProd (A := 100000) (K := 64) (B := 40) (V c main_v62) (V c main_arg6)) := by
  show (cfg3.win 2).cut (grid3.coords t) ((dat3 V c).after 2 t) = _
  rw [after3_2]
  unfold out3_2
  rw [View.canon_unit_zero dense_hz]
  simp only [View.ld_unit_zero (S := S10000x64) dense_hz, View.ld_unit_zero (S := S64x40) dense_hz]
  obtain ⟨e0, e1, e2, e3, e4, e5⟩ := idx_facts3 t
  funext j
  show k3_pay1 (F := Ideal) (iblk3 V c 0 t) (iblk3 V c 1 t) j
    = Cert.LibGcnLayer.matProd (A := 100000) (K := 64) (B := 40) (V c main_v62) (V c main_arg6) (((cfg3.win 2).blk t).view.emb j)
  refine (pay3_apply (iblk3 V c 0 t) (iblk3 V c 1 t) j).trans ?_
  unfold Cert.LibGcnLayer.matProd
  refine Finset.sum_congr rfl fun k _ => ?_
  have hl : iblk3 V c 0 t (ix2 (j 0) k) = V c main_v62 (ix2 ((((cfg3.win 2).blk t).view.emb j) 0) k) := by
    show V c main_v62 (((cfg3.win 0).blk t).view.emb (ix2 (j 0) k)) = _
    refine congrArg (V c main_v62) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  have hr : iblk3 V c 1 t (ix2 k (j 1)) = V c main_arg6 (ix2 k ((((cfg3.win 2).blk t).view.emb j) 1)) := by
    show V c main_arg6 (((cfg3.win 1).blk t).view.emb (ix2 k (j 1))) = _
    refine congrArg (V c main_arg6) (funext fun a => Fin.ext ?_)
    match a with
    | ⟨0, _⟩ => show win3_1.index t (0 : Fin 2) * 64 + 1 * k.val = k.val; omega
    | ⟨1, _⟩ => show win3_1.index t (1 : Fin 2) * 40 + 1 * (j 1).val = win3_2.index t (1 : Fin 2) * 40 + 1 * (j 1).val; omega
  rw [hl, hr]

/-- An index of the output array is in point t's block iff each coordinate is in the block's range on its axis. -/
theorem mem_blk3 (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v63).slice (win3_2.rect t)).set ↔ _
  rw [View.set_slice_whole, Rect.mem_set_unit]
  exact Iff.rfl

/-- The ten row blocks cover the output array: row r is in block r / 10000. -/
theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 40 ≤ (i 1).val ∧ (i 1).val < win3_2.index t (1 : Fin 2) * 40 + 40; omega

/-- Region 3 leaves its output array holding the matrix product of its two input arrays. -/
theorem dense3_array (c : Dev nD) :
    (dat3 (F := Ideal) V c).arrAt 2 cfg3.N
      = Cert.LibGcnLayer.matProd (A := 100000) (K := 64) (B := 40) (V c main_v62) (V c main_arg6) :=
  (dat3 (F := Ideal) V c).arrAt_eq_of_cover 2 _ (fun t _ => flushed3_eq V c t) (cover3)

end Cert.KernelIdeal.Tiles

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.TileCombine.lean ====
/-
  The two combining regions: each leaves its output array holding "aggregated + own · self-coefficient + bias".

  A combining region's grid has ten points; point t is handed rows 10000·t … 10000·t + 9999 of the aggregated messages,
  of the node's own transformed features and of the one-column array of self-loop coefficients, and the whole one-row
  bias, and writes back the same rows of the output. The body spreads the column along the rows and the row down the
  columns and computes (agg + own · coefficient) + bias entrywise, so entry (p, q) of the block it stores depends on the
  blocks' entries (p, q), (p, 0) and (0, q) only. Row p of block t is row 10000·t + p of each array, so the block
  written back is block t of the whole-array combination, and the ten blocks tile the output array.
-/
import proofs.«122838_j80676665688552_1_alg».proof.Proof.Gen.KernelIdeal.Frame
import proofs.«122838_j80676665688552_1_alg».proof.Proof.LibGcnLayer
import proofs.«122838_j80676665688552_1_alg».proof.Proof.LibKeepdims
import proofs.«122838_j80676665688552_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Tiles

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block access, as the constant function. -/
theorem comb_zeros2 : (![0, 0] : Fin 2 → Nat) = fun _ => 0 := funext fun a => by fin_cases a <;> rfl

/-! ## Sixty-four columns -/

/-- One block's result at entry (p, q): the aggregated entry, plus the node's own entry times the row's
    coefficient, plus the column's bias. -/
theorem comb64_pay_apply (x0 x1 : Vec Ideal S10000x64 .f32) (x2 : Vec Ideal S10000x1 .f32) (x3 : Vec Ideal S1x64 .f32)
    (p : Fin 10000) (q : Fin 64) :
    k1_pay1 (F := Ideal) x0 x1 x2 x3 (ix2 p q)
      = (x0 (ix2 p q) + x1 (ix2 p q) * x2 (ix2 p (0 : Fin 1))) + x3 (ix2 (0 : Fin 1) q) := by
  unfold k1_pay1
  simp only [shapeCast_self]
  show (x0 (ix2 p q) + x1 (ix2 p q) * broadcastTo S10000x64 x2 broadcasts_S10000x1_S10000x64 (ix2 p q))
      + broadcastTo S10000x64 x3 broadcasts_S1x64_S10000x64 (ix2 p q) = _
  rw [Cert.LibKeepdims.broadcastTo_a1_ab_apply, Cert.LibRowLayout.broadcastTo_1b_ab_apply]

/-- Where each window's block sits at grid point t: the four row-blocked windows at block row t, the bias
    window always at its one block. -/
theorem comb64_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point t writes back is block t of the layer's combination of the four input arrays: entry (p, q) of
    the block is entry (10000 t + p, q) of the arrays, so it reads row 10000 t + p of the one-column array and
    row 0 of the one-row array. -/
theorem comb64_flushed_eq (c : Dev nD) (t : Fin cfg1.N) :
    (dat1 (F := Ideal) V c).flushed 4 t = ((cfg1.win 4).blk t).view.read (Elt Ideal)
      (Cert.LibGcnLayer.combine (A := 100000) (B := 64) (V c main_v46) (V c main_v34) (V c main_v33) (V c main_v47)) := by
  show (cfg1.win 4).cut (grid1.coords t) ((dat1 V c).after 4 t) = _
  rw [after1_4]
  unfold out1_4
  rw [View.canon_unit_zero comb_zeros2]
  simp only [View.ld_unit_zero (S := S10000x64) comb_zeros2, View.ld_unit_zero (S := S10000x1) comb_zeros2,
    View.ld_unit_zero (S := S1x64) comb_zeros2]
  obtain ⟨e00, e01, e10, e11, e20, e21, e30, e31, e40, e41⟩ := comb64_idx t
  have ht : t.val < 10 := Nat.lt_of_lt_of_eq t.isLt N_1
  funext j
  obtain ⟨p, q, rfl⟩ : ∃ (p : Fin 10000) (q : Fin 64), j = ix2 p q := ⟨j 0, j 1, eq_ix2 j⟩
  have hp : p.val < 10000 := p.isLt
  have hq : q.val < 64 := q.isLt
  have hrow : t.val * 10000 + p.val < 100000 := by omega
  -- the block's entry (p, q) in the output array
  have hout : ((cfg1.win 4).blk t).view.emb (ix2 p q) = (ix2 (⟨t.val * 10000 + p.val, hrow⟩ : Fin 100000) q : S100000x64.Idx) := by
    funext a; apply Fin.ext
    match a with
    | ⟨0, _⟩ => show win1_4.index t (0 : Fin 2) * 10000 + 1 * p.val = t.val * 10000 + p.val; rw [e40]; omega
    | ⟨1, _⟩ => show win1_4.index t (1 : Fin 2) * 64 + 1 * q.val = q.val; rw [e41]; omega
  -- each input block's entry is the matching entry of its array
  have h0 : (iblk1 V c 0 t : Vec Ideal S10000x64 .f32) (ix2 p q) = (V c main_v46 : S100000x64.Idx → EReal) (ix2 (⟨t.val * 10000 + p.val, hrow⟩ : Fin 100000) q) := by
    show (V c main_v46 : S100000x64.Idx → EReal) (((cfg1.win 0).blk t).view.emb (ix2 p q)) = _
    refine congrArg (V c main_v46 : S100000x64.Idx → EReal) ?_
    funext a; apply Fin.ext
    match a with
    | ⟨0, _⟩ => show win1_0.index t (0 : Fin 2) * 10000 + 1 * p.val = t.val * 10000 + p.val; rw [e00]; omega
    | ⟨1, _⟩ => show win1_0.index t (1 : Fin 2) * 64 + 1 * q.val = q.val; rw [e01]; omega
  have h1 : (iblk1 V c 1 t : Vec Ideal S10000x64 .f32) (ix2 p q) = (V c main_v34 : S100000x64.Idx → EReal) (ix2 (⟨t.val * 10000 + p.val, hrow⟩ : Fin 100000) q) := by
    show (V c main_v34 : S100000x64.Idx → EReal) (((cfg1.win 1).blk t).view.emb (ix2 p q)) = _
    refine congrArg (V c main_v34 : S100000x64.Idx → EReal) ?_
    funext a; apply Fin.ext
    match a with
    | ⟨0, _⟩ => show win1_1.index t (0 : Fin 2) * 10000 + 1 * p.val = t.val * 10000 + p.val; rw [e10]; omega
    | ⟨1, _⟩ => show win1_1.index t (1 : Fin 2) * 64 + 1 * q.val = q.val; rw [e11]; omega
  have h2 : (iblk1 V c 2 t : Vec Ideal S10000x1 .f32) (ix2 p (0 : Fin 1)) = (V c main_v33 : S100000x1.Idx → EReal) (ix2 (⟨t.val * 10000 + p.val, hrow⟩ : Fin 100000) (0 : Fin 1)) := by
    show (V c main_v33 : S100000x1.Idx → EReal) (((cfg1.win 2).blk t).view.emb (ix2 p (0 : Fin 1))) = _
    refine congrArg (V c main_v33 : S100000x1.Idx → EReal) ?_
    funext a; apply Fin.ext
    match a with
    | ⟨0, _⟩ => show win1_2.index t (0 : Fin 2) * 10000 + 1 * p.val = t.val * 10000 + p.val; rw [e20]; omega
    | ⟨1, _⟩ => show win1_2.index t (1 : Fin 2) * 1 + 1 * 0 = 0; rw [e21]
  have h3 : (iblk1 V c 3 t : Vec Ideal S1x64 .f32) (ix2 (0 : Fin 1) q) = (V c main_v47 : S1x64.Idx → EReal) (ix2 (0 : Fin 1) q) := by
    show (V c main_v47 : S1x64.Idx → EReal) (((cfg1.win 3).blk t).view.emb (ix2 (0 : Fin 1) q)) = _
    refine congrArg (V c main_v47 : S1x64.Idx → EReal) ?_
    funext a; apply Fin.ext
    match a with
    | ⟨0, _⟩ => show win1_3.index t (0 : Fin 2) * 1 + 1 * 0 = 0; rw [e30]
    | ⟨1, _⟩ => show win1_3.index t (1 : Fin 2) * 64 + 1 * q.val = q.val; rw [e31]; omega
  show k1_pay1 (F := Ideal) (iblk1 V c 0 t) (iblk1 V c 1 t) (iblk1 V c 2 t) (iblk1 V c 3 t) (ix2 p q)
      = (Cert.LibGcnLayer.combine (A := 100000) (B := 64) (V c main_v46) (V c main_v34) (V c main_v33) (V c main_v47)) (((cfg1.win 4).blk t).view.emb (ix2 p q))
  refine (comb64_pay_apply (iblk1 V c 0 t) (iblk1 V c 1 t) (iblk1 V c 2 t) (iblk1 V c 3 t) p q).trans ?_
  refine Eq.trans ?_ (congrArg (Cert.LibGcnLayer.combine (A := 100000) (B := 64) (V c main_v46) (V c main_v34) (V c main_v33) (V c main_v47)) hout.symm)
  refine Eq.trans ?_ (Cert.LibGcnLayer.combine_apply (V c main_v46) (V c main_v34) (V c main_v33) (V c main_v47)
    (⟨t.val * 10000 + p.val, hrow⟩ : Fin 100000) q).symm
  exact congrArg₂ (· + ·) (congrArg₂ (· + ·) h0 (congrArg₂ (· * ·) h1 h2)) h3

/-- An entry of the output array lies in grid point t's block exactly when each coordinate lies in the block's
    range on its axis. -/
theorem comb64_mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v48).slice (win1_4.rect t)).set ↔ _
  rw [View.set_slice_whole, Rect.mem_set_unit]
  exact Iff.rfl

/-- Every entry of the output array is written back by some grid point: row r by point r / 10000. -/
theorem comb64_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 10000 < cfg1.N := by rw [show cfg1.N = 10 from N_1]; omega
  obtain ⟨t, ht⟩ : ∃ t : Fin cfg1.N, t.val = (i 0).val / 10000 := ⟨⟨(i 0).val / 10000, hlt⟩, rfl⟩
  obtain ⟨-, -, -, -, -, -, -, -, e40, e41⟩ := comb64_idx t
  refine ⟨t, flush1_4 t, ?_⟩
  rw [comb64_mem_blk]
  intro a
  match a with
  | ⟨0, _⟩ =>
    show win1_4.index t (0 : Fin 2) * 10000 ≤ (i 0).val ∧ (i 0).val < win1_4.index t (0 : Fin 2) * 10000 + 10000
    rw [e40, ht]; omega
  | ⟨1, _⟩ =>
    show win1_4.index t (1 : Fin 2) * 64 ≤ (i 1).val ∧ (i 1).val < win1_4.index t (1 : Fin 2) * 64 + 64
    rw [e41]; omega

/-- Region 1 leaves its output array holding the layer's combination of its four input arrays, entry by entry. -/
theorem combine64_array (c : Dev nD) :
    (dat1 (F := Ideal) V c).arrAt 4 cfg1.N
      = Cert.LibGcnLayer.combine (A := 100000) (B := 64) (V c main_v46) (V c main_v34) (V c main_v33) (V c main_v47) :=
  (dat1 (F := Ideal) V c).arrAt_eq_of_cover 4 _ (fun t _ => comb64_flushed_eq V c t) comb64_cover

/-! ## Forty columns -/

/-- One block's result at entry (p, q): the aggregated entry, plus the node's own entry times the row's
    coefficient, plus the column's bias. -/
theorem comb40_pay_apply (x0 x1 : Vec Ideal S10000x40 .f32) (x2 : Vec Ideal S10000x1 .f32) (x3 : Vec Ideal S1x40 .f32)
    (p : Fin 10000) (q : Fin 40) :
    k4_pay1 (F := Ideal) x0 x1 x2 x3 (ix2 p q)
      = (x0 (ix2 p q) + x1 (ix2 p q) * x2 (ix2 p (0 : Fin 1))) + x3 (ix2 (0 : Fin 1) q) := by
  unfold k4_pay1
  simp only [shapeCast_self]
  show (x0 (ix2 p q) + x1 (ix2 p q) * broadcastTo S10000x40 x2 broadcasts_S10000x1_S10000x40 (ix2 p q))
      + broadcastTo S10000x40 x3 broadcasts_S1x40_S10000x40 (ix2 p q) = _
  rw [Cert.LibKeepdims.broadcastTo_a1_ab_apply, Cert.LibRowLayout.broadcastTo_1b_ab_apply]

/-- Where each window's block sits at grid point t: the four row-blocked windows at block row t, the bias
    window always at its one block. -/
theorem comb40_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What grid point t writes back is block t of the layer's combination of the four input arrays: entry (p, q) of
    the block is entry (10000 t + p, q) of the arrays, so it reads row 10000 t + p of the one-column array and
    row 0 of the one-row array. -/
theorem comb40_flushed_eq (c : Dev nD) (t : Fin cfg4.N) :
    (dat4 (F := Ideal) V c).flushed 4 t = ((cfg4.win 4).blk t).view.read (Elt Ideal)
      (Cert.LibGcnLayer.combine (A := 100000) (B := 40) (V c main_v75) (V c main_v63) (V c main_v33) (V c main_v76)) := by
  show (cfg4.win 4).cut (grid4.coords t) ((dat4 V c).after 4 t) = _
  rw [after4_4]
  unfold out4_4
  rw [View.canon_unit_zero comb_zeros2]
  simp only [View.ld_unit_zero (S := S10000x40) comb_zeros2, View.ld_unit_zero (S := S10000x1) comb_zeros2,
    View.ld_unit_zero (S := S1x40) comb_zeros2]
  obtain ⟨e00, e01, e10, e11, e20, e21, e30, e31, e40, e41⟩ := comb40_idx t
  have ht : t.val < 10 := Nat.lt_of_lt_of_eq t.isLt N_4
  funext j
  obtain ⟨p, q, rfl⟩ : ∃ (p : Fin 10000) (q : Fin 40), j = ix2 p q := ⟨j 0, j 1, eq_ix2 j⟩
  have hp : p.val < 10000 := p.isLt
  have hq : q.val < 40 := q.isLt
  have hrow : t.val * 10000 + p.val < 100000 := by omega
  -- the block's entry (p, q) in the output array
  have hout : ((cfg4.win 4).blk t).view.emb (ix2 p q) = (ix2 (⟨t.val * 10000 + p.val, hrow⟩ : Fin 100000) q : S100000x40.Idx) := by
    funext a; apply Fin.ext
    match a with
    | ⟨0, _⟩ => show win4_4.index t (0 : Fin 2) * 10000 + 1 * p.val = t.val * 10000 + p.val; rw [e40]; omega
    | ⟨1, _⟩ => show win4_4.index t (1 : Fin 2) * 40 + 1 * q.val = q.val; rw [e41]; omega
  -- each input block's entry is the matching entry of its array
  have h0 : (iblk4 V c 0 t : Vec Ideal S10000x40 .f32) (ix2 p q) = (V c main_v75 : S100000x40.Idx → EReal) (ix2 (⟨t.val * 10000 + p.val, hrow⟩ : Fin 100000) q) := by
    show (V c main_v75 : S100000x40.Idx → EReal) (((cfg4.win 0).blk t).view.emb (ix2 p q)) = _
    refine congrArg (V c main_v75 : S100000x40.Idx → EReal) ?_
    funext a; apply Fin.ext
    match a with
    | ⟨0, _⟩ => show win4_0.index t (0 : Fin 2) * 10000 + 1 * p.val = t.val * 10000 + p.val; rw [e00]; omega
    | ⟨1, _⟩ => show win4_0.index t (1 : Fin 2) * 40 + 1 * q.val = q.val; rw [e01]; omega
  have h1 : (iblk4 V c 1 t : Vec Ideal S10000x40 .f32) (ix2 p q) = (V c main_v63 : S100000x40.Idx → EReal) (ix2 (⟨t.val * 10000 + p.val, hrow⟩ : Fin 100000) q) := by
    show (V c main_v63 : S100000x40.Idx → EReal) (((cfg4.win 1).blk t).view.emb (ix2 p q)) = _
    refine congrArg (V c main_v63 : S100000x40.Idx → EReal) ?_
    funext a; apply Fin.ext
    match a with
    | ⟨0, _⟩ => show win4_1.index t (0 : Fin 2) * 10000 + 1 * p.val = t.val * 10000 + p.val; rw [e10]; omega
    | ⟨1, _⟩ => show win4_1.index t (1 : Fin 2) * 40 + 1 * q.val = q.val; rw [e11]; omega
  have h2 : (iblk4 V c 2 t : Vec Ideal S10000x1 .f32) (ix2 p (0 : Fin 1)) = (V c main_v33 : S100000x1.Idx → EReal) (ix2 (⟨t.val * 10000 + p.val, hrow⟩ : Fin 100000) (0 : Fin 1)) := by
    show (V c main_v33 : S100000x1.Idx → EReal) (((cfg4.win 2).blk t).view.emb (ix2 p (0 : Fin 1))) = _
    refine congrArg (V c main_v33 : S100000x1.Idx → EReal) ?_
    funext a; apply Fin.ext
    match a with
    | ⟨0, _⟩ => show win4_2.index t (0 : Fin 2) * 10000 + 1 * p.val = t.val * 10000 + p.val; rw [e20]; omega
    | ⟨1, _⟩ => show win4_2.index t (1 : Fin 2) * 1 + 1 * 0 = 0; rw [e21]
  have h3 : (iblk4 V c 3 t : Vec Ideal S1x40 .f32) (ix2 (0 : Fin 1) q) = (V c main_v76 : S1x40.Idx → EReal) (ix2 (0 : Fin 1) q) := by
    show (V c main_v76 : S1x40.Idx → EReal) (((cfg4.win 3).blk t).view.emb (ix2 (0 : Fin 1) q)) = _
    refine congrArg (V c main_v76 : S1x40.Idx → EReal) ?_
    funext a; apply Fin.ext
    match a with
    | ⟨0, _⟩ => show win4_3.index t (0 : Fin 2) * 1 + 1 * 0 = 0; rw [e30]
    | ⟨1, _⟩ => show win4_3.index t (1 : Fin 2) * 40 + 1 * q.val = q.val; rw [e31]; omega
  show k4_pay1 (F := Ideal) (iblk4 V c 0 t) (iblk4 V c 1 t) (iblk4 V c 2 t) (iblk4 V c 3 t) (ix2 p q)
      = (Cert.LibGcnLayer.combine (A := 100000) (B := 40) (V c main_v75) (V c main_v63) (V c main_v33) (V c main_v76)) (((cfg4.win 4).blk t).view.emb (ix2 p q))
  refine (comb40_pay_apply (iblk4 V c 0 t) (iblk4 V c 1 t) (iblk4 V c 2 t) (iblk4 V c 3 t) p q).trans ?_
  refine Eq.trans ?_ (congrArg (Cert.LibGcnLayer.combine (A := 100000) (B := 40) (V c main_v75) (V c main_v63) (V c main_v33) (V c main_v76)) hout.symm)
  refine Eq.trans ?_ (Cert.LibGcnLayer.combine_apply (V c main_v75) (V c main_v63) (V c main_v33) (V c main_v76)
    (⟨t.val * 10000 + p.val, hrow⟩ : Fin 100000) q).symm
  exact congrArg₂ (· + ·) (congrArg₂ (· + ·) h0 (congrArg₂ (· * ·) h1 h2)) h3

/-- An entry of the output array lies in grid point t's block exactly when each coordinate lies in the block's
    range on its axis. -/
theorem comb40_mem_blk (t : Fin cfg4.N) (i : S100000x40.Idx) :
    i ∈ ((cfg4.win 4).blk t).view.set ↔ ∀ a : Fin 2, win4_4.index t a * S10000x40.size a ≤ (i a).val
      ∧ (i a).val < win4_4.index t a * S10000x40.size a + S10000x40.size a := by
  show i ∈ ((View.whole main_v77).slice (win4_4.rect t)).set ↔ _
  rw [View.set_slice_whole, Rect.mem_set_unit]
  exact Iff.rfl

/-- Every entry of the output array is written back by some grid point: row r by point r / 10000. -/
theorem comb40_cover (i : S100000x40.Idx) :
    ∃ t : Fin cfg4.N, (cfg4.win 4).flush t = true ∧ i ∈ ((cfg4.win 4).blk t).view.set := by
  have hi0 : (i 0).val < 100000 := (i 0).isLt
  have hi1 : (i 1).val < 40 := (i 1).isLt
  have hlt : (i 0).val / 10000 < cfg4.N := by rw [show cfg4.N = 10 from N_4]; omega
  obtain ⟨t, ht⟩ : ∃ t : Fin cfg4.N, t.val = (i 0).val / 10000 := ⟨⟨(i 0).val / 10000, hlt⟩, rfl⟩
  obtain ⟨-, -, -, -, -, -, -, -, e40, e41⟩ := comb40_idx t
  refine ⟨t, flush4_4 t, ?_⟩
  rw [comb40_mem_blk]
  intro a
  match a with
  | ⟨0, _⟩ =>
    show win4_4.index t (0 : Fin 2) * 10000 ≤ (i 0).val ∧ (i 0).val < win4_4.index t (0 : Fin 2) * 10000 + 10000
    rw [e40, ht]; omega
  | ⟨1, _⟩ =>
    show win4_4.index t (1 : Fin 2) * 40 ≤ (i 1).val ∧ (i 1).val < win4_4.index t (1 : Fin 2) * 40 + 40
    rw [e41]; omega

/-- Region 4 likewise, with 40 columns. -/
theorem combine40_array (c : Dev nD) :
    (dat4 (F := Ideal) V c).arrAt 4 cfg4.N
      = Cert.LibGcnLayer.combine (A := 100000) (B := 40) (V c main_v75) (V c main_v63) (V c main_v33) (V c main_v76) :=
  (dat4 (F := Ideal) V c).arrAt_eq_of_cover 4 _ (fun t _ => comb40_flushed_eq V c t) comb40_cover

end Cert.KernelIdeal.Tiles

end
-- ==== Proof.TileNorm.lean ====
/-
  The normalising region: it leaves its output array holding the batch-normalised, scaled, shifted and clamped input.

  The region's grid has ten points; point t is handed rows 10000·t … 10000·t + 9999 of the array to normalise and the
  whole one-row arrays of column means, column variances, scales and shifts, and writes back the same rows of the output.
  The body forms rsqrt(variance + eps) on the row, spreads the four rows down the block's rows, and computes
  max((((x − mean) · rsqrt(variance + eps)) · scale) + shift, 0) entrywise, so entry (p, q) of the block it stores
  depends on the block's entry (p, q) and on entry (0, q) of each row only. Row p of block t is row 10000·t + p of the
  array, so the block written back is block t of the whole-array function, and the ten blocks tile the output array.
-/
import proofs.«122838_j80676665688552_1_alg».proof.Proof.Gen.KernelIdeal.Frame
import proofs.«122838_j80676665688552_1_alg».proof.Proof.LibGcnLayer
import proofs.«122838_j80676665688552_1_alg».proof.Proof.LibKeepdims
import proofs.«122838_j80676665688552_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Tiles

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of an access to a whole buffer are zero on both axes. -/
theorem norm_zero_offsets : (![0, 0] : Fin 2 → Nat) = fun _ => 0 := funext fun a => by fin_cases a <;> rfl

/-- One entry of the block the body stores. The body first forms, on the one-row arrays, the reciprocal square root of
    the variance plus eps; it spreads that row, the mean, the scale and the shift down the block's rows; entry (p, q)
    is then the input entry (p, q) less the mean of column q, times that column's reciprocal square root, times its
    scale, plus its shift, and last the maximum with zero. The five entries read are given by name. -/
theorem norm_stored_entry (vr : FVec Ideal S1x64 .f32) (x : FVec Ideal S10000x64 .f32) (mu ga be : FVec Ideal S1x64 .f32)
    (p : Fin 10000) (q : Fin 64) (xe me ve ge bb : EReal)
    (hx : x (ix2 p q) = xe) (hm : mu (ix2 (0 : Fin 1) q) = me) (hv : vr (ix2 (0 : Fin 1) q) = ve)
    (hg : ga (ix2 (0 : Fin 1) q) = ge) (hb : be (ix2 (0 : Fin 1) q) = bb) :
    k2_pay1 (F := Ideal) vr x mu ga be (ix2 p q)
      = max ((((xe - me) * Ideal.rsqrt (ve + Ideal.ofBits .f32 0x3727C5AC#32)) * ge) + bb)
          (Ideal.ofBits .f32 0x00000000#32) := by
  subst hx hm hv hg hb
  unfold k2_pay1
  simp only [shapeCast_self]
  show max ((((x (ix2 p q) - broadcastTo S10000x64 mu broadcasts_S1x64_S10000x64 (ix2 p q))
        * broadcastTo S10000x64 (rsqrt (addf vr (broadcast S1x64 (Scalar.ofBits .f32 0x3727C5AC#32)))) broadcasts_S1x64_S10000x64 (ix2 p q))
        * broadcastTo S10000x64 ga broadcasts_S1x64_S10000x64 (ix2 p q))
        + broadcastTo S10000x64 be broadcasts_S1x64_S10000x64 (ix2 p q)) (Ideal.ofBits .f32 0x00000000#32) = _
  rw [Cert.LibRowLayout.broadcastTo_1b_ab_apply mu, Cert.LibRowLayout.broadcastTo_1b_ab_apply ga,
    Cert.LibRowLayout.broadcastTo_1b_ab_apply be, Cert.LibRowLayout.broadcastTo_1b_ab_apply (rsqrt _)]
  rfl

/-- The index maps over the ten grid points: at point t the window of the array to normalise and the output window
    are at block (t, 0), and the four one-row windows are at block (0, 0). -/
theorem norm_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, q) of the block of the array to normalise at point t is the array's entry (t·10000 + p, q). -/
theorem norm_x_block_entry (c : Dev nD) (t : Fin cfg2.N) (p : Fin 10000) (q : Fin 64) (k : S100000x64.Idx)
    (hk0 : (k 0).val = t.val * 10000 + p.val) (hk1 : (k 1).val = q.val) :
    (iblk2 (F := Ideal) V c 0 t : FVec Ideal S10000x64 .f32) (ix2 p q) = (V c main_v48 : S100000x64.Idx → EReal) k := by
  obtain ⟨e0, e1, -⟩ := norm_index_maps t
  show V c main_v48 (((cfg2.win 0).blk t).view.emb (ix2 p q)) = V c main_v48 k
  congr 1
  funext a
  apply Fin.ext
  match a with
  | ⟨0, _⟩ => show win2_0.index t (0 : Fin 2) * 10000 + 1 * p.val = (k 0).val; omega
  | ⟨1, _⟩ => show win2_0.index t (1 : Fin 2) * 64 + 1 * q.val = (k 1).val; omega

/-- Entry (0, q) of the mean's block at any point is the mean's entry (0, q). -/
theorem norm_mean_block_entry (c : Dev nD) (t : Fin cfg2.N) (q : Fin 64) :
    (iblk2 (F := Ideal) V c 1 t : FVec Ideal S1x64 .f32) (ix2 (0 : Fin 1) q) = (V c main_v52 : S1x64.Idx → EReal) (ix2 (0 : Fin 1) q) := by
  obtain ⟨-, -, e0, e1, -⟩ := norm_index_maps t
  show V c main_v52 (((cfg2.win 1).blk t).view.emb (ix2 (0 : Fin 1) q)) = V c main_v52 (ix2 (0 : Fin 1) q)
  congr 1
  funext a
  apply Fin.ext
  match a with
  | ⟨0, _⟩ => show win2_1.index t (0 : Fin 2) * 1 + 1 * 0 = 0; omega
  | ⟨1, _⟩ => show win2_1.index t (1 : Fin 2) * 64 + 1 * q.val = q.val; omega

/-- Entry (0, q) of the variance's block at any point is the variance's entry (0, q). -/
theorem norm_var_block_entry (c : Dev nD) (t : Fin cfg2.N) (q : Fin 64) :
    (iblk2 (F := Ideal) V c 2 t : FVec Ideal S1x64 .f32) (ix2 (0 : Fin 1) q) = (V c main_v59 : S1x64.Idx → EReal) (ix2 (0 : Fin 1) q) := by
  obtain ⟨-, -, -, -, e0, e1, -⟩ := norm_index_maps t
  show V c main_v59 (((cfg2.win 2).blk t).view.emb (ix2 (0 : Fin 1) q)) = V c main_v59 (ix2 (0 : Fin 1) q)
  congr 1
  funext a
  apply Fin.ext
  match a with
  | ⟨0, _⟩ => show win2_2.index t (0 : Fin 2) * 1 + 1 * 0 = 0; omega
  | ⟨1, _⟩ => show win2_2.index t (1 : Fin 2) * 64 + 1 * q.val = q.val; omega

/-- Entry (0, q) of the scale's block at any point is the scale's entry (0, q). -/
theorem norm_scale_block_entry (c : Dev nD) (t : Fin cfg2.N) (q : Fin 64) :
    (iblk2 (F := Ideal) V c 3 t : FVec Ideal S1x64 .f32) (ix2 (0 : Fin 1) q) = (V c main_v60 : S1x64.Idx → EReal) (ix2 (0 : Fin 1) q) := by
  obtain ⟨-, -, -, -, -, -, e0, e1, -⟩ := norm_index_maps t
  show V c main_v60 (((cfg2.win 3).blk t).view.emb (ix2 (0 : Fin 1) q)) = V c main_v60 (ix2 (0 : Fin 1) q)
  congr 1
  funext a
  apply Fin.ext
  match a with
  | ⟨0, _⟩ => show win2_3.index t (0 : Fin 2) * 1 + 1 * 0 = 0; omega
  | ⟨1, _⟩ => show win2_3.index t (1 : Fin 2) * 64 + 1 * q.val = q.val; omega

/-- Entry (0, q) of the shift's block at any point is the shift's entry (0, q). -/
theorem norm_shift_block_entry (c : Dev nD) (t : Fin cfg2.N) (q : Fin 64) :
    (iblk2 (F := Ideal) V c 4 t : FVec Ideal S1x64 .f32) (ix2 (0 : Fin 1) q) = (V c main_v61 : S1x64.Idx → EReal) (ix2 (0 : Fin 1) q) := by
  obtain ⟨-, -, -, -, -, -, -, -, e0, e1, -⟩ := norm_index_maps t
  show V c main_v61 (((cfg2.win 4).blk t).view.emb (ix2 (0 : Fin 1) q)) = V c main_v61 (ix2 (0 : Fin 1) q)
  congr 1
  funext a
  apply Fin.ext
  match a with
  | ⟨0, _⟩ => show win2_4.index t (0 : Fin 2) * 1 + 1 * 0 = 0; omega
  | ⟨1, _⟩ => show win2_4.index t (1 : Fin 2) * 64 + 1 * q.val = q.val; omega

/-- Entry (p, q) of the output block at point t sits at the output array's entry (t·10000 + p, q). -/
theorem norm_out_block_index (t : Fin cfg2.N) (p : Fin 10000) (q : Fin 64) (k : S100000x64.Idx)
    (hk0 : (k 0).val = t.val * 10000 + p.val) (hk1 : (k 1).val = q.val) :
    ((cfg2.win 5).blk t).view.emb (ix2 p q) = k := by
  obtain ⟨-, -, -, -, -, -, -, -, -, -, e0, e1⟩ := norm_index_maps t
  funext a
  apply Fin.ext
  match a with
  | ⟨0, _⟩ => show win2_5.index t (0 : Fin 2) * 10000 + 1 * p.val = (k 0).val; omega
  | ⟨1, _⟩ => show win2_5.index t (1 : Fin 2) * 64 + 1 * q.val = (k 1).val; omega

/-- What point t writes back is block t of the normalised, scaled, shifted and clamped array: entry (p, q) of what
    the body stores depends on the input's entry (t·10000 + p, q) and on the entries (0, q) of the four one-row
    arrays, exactly as entry (t·10000 + p, q) of the whole-array function does. -/
theorem norm_flushed_block (c : Dev nD) (t : Fin cfg2.N) :
    (dat2 (F := Ideal) V c).flushed 5 t
      = ((cfg2.win 5).blk t).view.read (Elt Ideal)
          (Cert.LibGcnLayer.normRelu (A := 100000) (B := 64) (V c main_v48) (V c main_v52) (V c main_v59) (V c main_v60) (V c main_v61)
            (Ideal.ofBits .f32 0x3727C5AC#32)) := by
  show (cfg2.win 5).cut (grid2.coords t) ((dat2 (F := Ideal) V c).after 5 t) = _
  rw [after2_5]
  unfold out2_5
  rw [View.canon_unit_zero norm_zero_offsets]
  simp only [View.ld_unit_zero (S := S10000x64) norm_zero_offsets, View.ld_unit_zero (S := S1x64) norm_zero_offsets]
  funext j
  obtain ⟨p, q, rfl⟩ : ∃ (p : Fin 10000) (q : Fin 64), j = ix2 p q := ⟨j 0, j 1, eq_ix2 j⟩
  have ht : t.val < 10 := N_2 ▸ t.isLt
  have hp : p.val < 10000 := p.isLt
  have hrow : t.val * 10000 + p.val < 100000 := by omega
  refine (norm_stored_entry (iblk2 (F := Ideal) V c 2 t) (iblk2 (F := Ideal) V c 0 t) (iblk2 (F := Ideal) V c 1 t)
    (iblk2 (F := Ideal) V c 3 t) (iblk2 (F := Ideal) V c 4 t) p q _ _ _ _ _
    (norm_x_block_entry V c t p q (ix2 ⟨t.val * 10000 + p.val, hrow⟩ q) rfl rfl)
    (norm_mean_block_entry V c t q) (norm_var_block_entry V c t q)
    (norm_scale_block_entry V c t q) (norm_shift_block_entry V c t q)).trans ?_
  show _ = Cert.LibGcnLayer.normRelu (A := 100000) (B := 64) (V c main_v48) (V c main_v52) (V c main_v59) (V c main_v60) (V c main_v61)
      (Ideal.ofBits .f32 0x3727C5AC#32) (((cfg2.win 5).blk t).view.emb (ix2 p q))
  rw [norm_out_block_index t p q (ix2 ⟨t.val * 10000 + p.val, hrow⟩ q) rfl rfl, Cert.LibGcnLayer.normRelu_apply]

/-- An entry of the output array is in point t's block exactly when each coordinate is in the block's range. -/
theorem norm_mem_block (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v62).slice (win2_5.rect t)).set ↔ _
  rw [View.set_slice_whole, Rect.mem_set_unit]
  exact Iff.rfl

/-- Every entry of the output array is written back by some point: row r by point r / 10000. -/
theorem norm_covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hlt : (i 0).val / 10000 < cfg2.N := by show (i 0).val / 10000 < grid2.N; rw [N_2]; omega
  obtain ⟨-, -, -, -, -, -, -, -, -, -, e0, e1⟩ := norm_index_maps ⟨(i 0).val / 10000, hlt⟩
  have e0' : win2_5.index ⟨(i 0).val / 10000, hlt⟩ (0 : Fin 2) = (i 0).val / 10000 := e0
  refine ⟨⟨(i 0).val / 10000, hlt⟩, flush2_5 _, ?_⟩
  rw [norm_mem_block]
  intro a
  match a with
  | ⟨0, _⟩ =>
    show win2_5.index ⟨(i 0).val / 10000, hlt⟩ (0 : Fin 2) * 10000 ≤ (i 0).val
      ∧ (i 0).val < win2_5.index ⟨(i 0).val / 10000, hlt⟩ (0 : Fin 2) * 10000 + 10000
    omega
  | ⟨1, _⟩ =>
    show win2_5.index ⟨(i 0).val / 10000, hlt⟩ (1 : Fin 2) * 64 ≤ (i 1).val
      ∧ (i 1).val < win2_5.index ⟨(i 0).val / 10000, hlt⟩ (1 : Fin 2) * 64 + 64
    omega

/-- Region 2 leaves its output array holding the normalised, scaled, shifted and clamped input, entry by entry. -/
theorem normRelu_array (c : Dev nD) :
    (dat2 (F := Ideal) V c).arrAt 5 cfg2.N
      = Cert.LibGcnLayer.normRelu (A := 100000) (B := 64) (V c main_v48) (V c main_v52) (V c main_v59) (V c main_v60) (V c main_v61)
          (Ideal.ofBits .f32 0x3727C5AC#32) :=
  (dat2 (F := Ideal) V c).arrAt_eq_of_cover 5 _ (fun t _ => norm_flushed_block V c t) norm_covered

end Cert.KernelIdeal.Tiles

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.RefStages.lean ====
/-
  The reference program's dense stages as entrywise functions.

  The reference is a two-layer graph convolution with a normalisation between the layers.  Each layer multiplies the node
  features by a weight matrix, adds to the aggregated neighbour messages the node's own transformed features scaled by
  its self-loop coefficient, and adds a bias; between the layers every column is centred by its mean, scaled by the
  reciprocal square root of its variance plus a small constant, scaled and shifted per column, and clamped at zero.

  The program spreads every per-row and per-column operand over the whole table by two broadcasts before it combines
  them entry by entry.  Read at an entry (p, q), a vector made a column and then spread across the columns gives the
  vector's entry p, and a vector made a one-row array and then spread down the rows gives the vector's entry q: the
  same entries the vector cast to a column reads at (p, 0), and cast to a row reads at (0, q).  So each stage below is,
  entry by entry and with the same grouping of the same operations, the corresponding entrywise function of the
  earlier stages; the aggregated messages, the squared coefficients, the column means and the column variances are
  left as they are, whatever they compute.
-/
import proofs.«122838_j80676665688552_1_alg».proof.Proof.Gen.ReferenceIdeal.Run
import proofs.«122838_j80676665688552_1_alg».proof.Proof.Gen.ReferenceIdeal.Read
import proofs.«122838_j80676665688552_1_alg».proof.Proof.LibGcnLayer
import proofs.«122838_j80676665688552_1_alg».proof.Proof.LibPlainDot
import proofs.«122838_j80676665688552_1_alg».proof.Proof.LibJoinedRows
import proofs.«122838_j80676665688552_1_alg».proof.Proof.LibRowBcast
import proofs.«122838_j80676665688552_1_alg».proof.Proof.LibKeepdims
import proofs.«122838_j80676665688552_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem
open Cert.LibGcnLayer
open scoped BigOperators

/-! ## A vector spread over a table, against the vector cast to a column or a row -/

section Spread
variable {α : Type}

/-- A vector `[a]` made a column and spread across `b` columns reads, at `(p, q)`, what the vector cast to a column reads
    at `(p, 0)`: both are the vector's entry `p`. -/
theorem col_spread_eq_cast {a b : ℕ} (v : (⟨1, ![a]⟩ : Shape).Idx → α)
    (h₁ : (⟨1, ![a]⟩ : Shape).BroadcastsInDim ⟨2, ![a, 1]⟩ (![0] : Fin 1 → Fin 2))
    (h₂ : (⟨2, ![a, 1]⟩ : Shape).BroadcastsInDim ⟨2, ![a, b]⟩ (![0, 1] : Fin 2 → Fin 2))
    (hc : (⟨1, ![a]⟩ : Shape).ShapeCasts ⟨2, ![a, 1]⟩) (p : Fin a) (q : Fin b) :
    broadcastInDim ⟨2, ![a, b]⟩ ![0, 1] h₂ (broadcastInDim ⟨2, ![a, 1]⟩ ![0] h₁ v) (ix2 p q)
      = shapeCast ⟨2, ![a, 1]⟩ v hc (ix2 p (0 : Fin 1)) :=
  ((Cert.LibJoinedRows.bcast_col_rows_apply h₂ _ p q).trans (Cert.LibJoinedRows.bcast_vec_col_apply h₁ v p 0)).trans
    (Cert.LibKeepdims.shapeCast_a_a1_apply v hc p 0).symm

/-- A vector `[b]` made a one-row array and spread down `a` rows reads, at `(p, q)`, what the vector cast to a one-row
    array reads at `(0, q)`: both are the vector's entry `q`. -/
theorem row_spread_eq_cast {a b : ℕ} (v : (⟨1, ![b]⟩ : Shape).Idx → α)
    (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (hc : (⟨1, ![b]⟩ : Shape).ShapeCasts ⟨2, ![1, b]⟩) (p : Fin a) (q : Fin b) :
    broadcastInDim ⟨2, ![a, b]⟩ ![0, 1] h₂ (broadcastInDim ⟨2, ![1, b]⟩ ![1] h₁ v) (ix2 p q)
      = shapeCast ⟨2, ![1, b]⟩ v hc (ix2 (0 : Fin 1) q) :=
  (Cert.LibRowBcast.bcast_vec_rows_apply h₁ h₂ v p q).trans (Cert.LibRowLayout.shapeCast_b_1b_apply v hc 0 q).symm

end Spread

/-! ## The entrywise functions over spread operands

  Both identities hold for arbitrary operands of any extents `[a, b]`, `[a]`, `[b]`. -/

section Generic
variable {a b : ℕ}

/-- Messages plus own features times a vector of per-row coefficients made a column and spread across the columns, plus
    a vector of per-column biases made a row and spread down the rows: the combination of the messages, the features,
    the coefficients cast to a column and the biases cast to a row. -/
theorem combine_spread (agg h : FVec Ideal ⟨2, ![a, b]⟩ .f32) (d : FVec Ideal ⟨1, ![a]⟩ .f32) (bias : FVec Ideal ⟨1, ![b]⟩ .f32)
    (hd₁ : (⟨1, ![a]⟩ : Shape).BroadcastsInDim ⟨2, ![a, 1]⟩ (![0] : Fin 1 → Fin 2))
    (hd₂ : (⟨2, ![a, 1]⟩ : Shape).BroadcastsInDim ⟨2, ![a, b]⟩ (![0, 1] : Fin 2 → Fin 2))
    (hb₁ : (⟨1, ![b]⟩ : Shape).BroadcastsInDim ⟨2, ![1, b]⟩ (![1] : Fin 1 → Fin 2))
    (hb₂ : (⟨2, ![1, b]⟩ : Shape).BroadcastsInDim ⟨2, ![a, b]⟩ (![0, 1] : Fin 2 → Fin 2))
    (hc : (⟨1, ![a]⟩ : Shape).ShapeCasts ⟨2, ![a, 1]⟩) (hr : (⟨1, ![b]⟩ : Shape).ShapeCasts ⟨2, ![1, b]⟩) :
    addf (addf agg (mulf h (broadcastInDim ⟨2, ![a, b]⟩ ![0, 1] hd₂ (broadcastInDim ⟨2, ![a, 1]⟩ ![0] hd₁ d))))
        (broadcastInDim ⟨2, ![a, b]⟩ ![0, 1] hb₂ (broadcastInDim ⟨2, ![1, b]⟩ ![1] hb₁ bias))
      = combine agg h (shapeCast ⟨2, ![a, 1]⟩ d hc) (shapeCast ⟨2, ![1, b]⟩ bias hr) := by
  funext i
  obtain ⟨p, q, rfl⟩ : ∃ (p : Fin a) (q : Fin b), i = ix2 p q := ⟨i 0, i 1, eq_ix2 i⟩
  rw [combine_apply, addf_apply, addf_apply, mulf_apply, col_spread_eq_cast d hd₁ hd₂ hc p q, row_spread_eq_cast bias hb₁ hb₂ hr p q]

/-- Centred by per-column means, scaled by the reciprocal square roots of per-column variances plus a vector that
    reads one constant everywhere, scaled and shifted per column, and clamped at an array that reads the zero word
    everywhere — every per-column vector made a row and spread down the rows: the normalisation of the table with the
    means, variances, scales and shifts cast to rows and that constant. -/
theorem normRelu_spread (x : FVec Ideal ⟨2, ![a, b]⟩ .f32) (mean var gamma beta epsv : FVec Ideal ⟨1, ![b]⟩ .f32)
    (zero : FVec Ideal ⟨2, ![a, b]⟩ .f32) (e0 : EReal)
    (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (hr : (⟨1, ![b]⟩ : Shape).ShapeCasts ⟨2, ![1, b]⟩)
    (heps : ∀ j, epsv j = e0) (hzero : ∀ i, zero i = Ideal.ofBits .f32 0x00000000#32) :
    maximumf
        (addf
          (mulf
            (mulf (subf x (broadcastInDim ⟨2, ![a, b]⟩ ![0, 1] h₂ (broadcastInDim ⟨2, ![1, b]⟩ ![1] h₁ mean)))
              (broadcastInDim ⟨2, ![a, b]⟩ ![0, 1] h₂ (broadcastInDim ⟨2, ![1, b]⟩ ![1] h₁ (Host.rsqrt (addf var epsv)))))
            (broadcastInDim ⟨2, ![a, b]⟩ ![0, 1] h₂ (broadcastInDim ⟨2, ![1, b]⟩ ![1] h₁ gamma)))
          (broadcastInDim ⟨2, ![a, b]⟩ ![0, 1] h₂ (broadcastInDim ⟨2, ![1, b]⟩ ![1] h₁ beta)))
        zero
      = normRelu x (shapeCast ⟨2, ![1, b]⟩ mean hr) (shapeCast ⟨2, ![1, b]⟩ var hr) (shapeCast ⟨2, ![1, b]⟩ gamma hr)
          (shapeCast ⟨2, ![1, b]⟩ beta hr) e0 := by
  funext i
  obtain ⟨p, q, rfl⟩ : ∃ (p : Fin a) (q : Fin b), i = ix2 p q := ⟨i 0, i 1, eq_ix2 i⟩
  rw [normRelu_apply, maximumf_apply, addf_apply, mulf_apply, mulf_apply, subf_apply, hzero,
    Cert.LibRowBcast.bcast_vec_rows_apply h₁ h₂ mean p q, Cert.LibRowBcast.bcast_vec_rows_apply h₁ h₂ (Host.rsqrt (addf var epsv)) p q,
    Cert.LibRowBcast.bcast_vec_rows_apply h₁ h₂ gamma p q, Cert.LibRowBcast.bcast_vec_rows_apply h₁ h₂ beta p q,
    Cert.LibRowLayout.shapeCast_b_1b_apply mean hr 0 q, Cert.LibRowLayout.shapeCast_b_1b_apply var hr 0 q,
    Cert.LibRowLayout.shapeCast_b_1b_apply gamma hr 0 q, Cert.LibRowLayout.shapeCast_b_1b_apply beta hr 0 q]
  show max ((((x (ix2 p q) - mean (ix1 q)) * Ideal.rsqrt (var (ix1 q) + epsv (ix1 q))) * gamma (ix1 q)) + beta (ix1 q)) _ = _
  rw [heps]

end Generic

/-! ## The two weight products -/

/-- The first layer's contraction is a plain product: the second axis of the `[100000, 128]` operand against the first
    axis of the `[128, 64]` operand, no batch axis. -/
theorem plain_dense1 : Cert.LibPlainDot.Plain (A := 100000) (K := 128) (B := 64) dot_S100000x128_S128x64_S100000x64_1_0_0_1_n_n :=
  ⟨rfl, rfl, rfl, rfl, rfl, rfl⟩

/-- The second layer's contraction is a plain product `[100000, 64] × [64, 40]`. -/
theorem plain_dense2 : Cert.LibPlainDot.Plain (A := 100000) (K := 64) (B := 40) dot_S100000x64_S64x40_S100000x40_1_0_0_1_n_n :=
  ⟨rfl, rfl, rfl, rfl, rfl, rfl⟩

/-- A host dot_general [100000,128]×[128,64] is the matrix product, as whole arrays. -/
theorem dense1_eq (x0 : (⟨S100000x128, .f32⟩ : BufTy).Contents (Elt Ideal)) (x2 : (⟨S128x64, .f32⟩ : BufTy).Contents (Elt Ideal)) :
    val_main_v4 (F := Ideal) x0 x2 = matProd (A := 100000) (K := 128) (B := 64) x0 x2 := by
  funext i
  obtain ⟨p, c, rfl⟩ : ∃ (p : Fin 100000) (c : Fin 64), i = ix2 p c := ⟨i 0, i 1, eq_ix2 i⟩
  unfold val_main_v4
  exact (plain_dense1.dotGeneral_apply none .single x0 x2 p c).trans (matProd_apply x0 x2 p c).symm

/-- The second dense layer is the matrix product of the normalised activations and the weights. -/
theorem dense2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 : (⟨S64, .f32⟩ : BufTy).Contents (Elt Ideal))
    (x6 : (⟨S64x40, .f32⟩ : BufTy).Contents (Elt Ideal)) :
    val_main_v79 (F := Ideal) x0 x1 x2 x3 x4 x5 x6
      = matProd (A := 100000) (K := 64) (B := 40) (val_main_v78 (F := Ideal) x0 x1 x2 x3 x4 x5) x6 := by
  funext i
  obtain ⟨p, c, rfl⟩ : ∃ (p : Fin 100000) (c : Fin 40), i = ix2 p c := ⟨i 0, i 1, eq_ix2 i⟩
  unfold val_main_v79
  generalize val_main_v78 (F := Ideal) x0 x1 x2 x3 x4 x5 = y
  exact (plain_dense2.dotGeneral_apply none .single y x6 p c).trans (matProd_apply y x6 p c).symm

/-! ## The two layers' outputs -/

/-- Layer 1's output is the combination of its aggregated messages, its own features, the self-loop coefficients cast to a
    column and the bias cast to a row (any proofs of the two casts' side conditions). -/
theorem layer1_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (hN : S100000.ShapeCasts S100000x1) (h64 : S64.ShapeCasts S1x64) :
    val_main_v52 (F := Ideal) x0 x1 x2 x3
      = combine (A := 100000) (B := 64) (val_main_v44 (F := Ideal) x0 x1 x2) (val_main_v4 (F := Ideal) x0 x2)
          (shapeCast S100000x1 (val_main_v45 (F := Ideal) x1) hN) (shapeCast S1x64 x3 h64) := by
  unfold val_main_v52 val_main_v49 val_main_v48 val_main_v51 val_main_v50 val_main_v47 val_main_v46
  generalize val_main_v44 (F := Ideal) x0 x1 x2 = agg
  generalize val_main_v4 (F := Ideal) x0 x2 = h
  generalize val_main_v45 (F := Ideal) x1 = d
  exact combine_spread (a := 100000) (b := 64) agg h d x3 bcast_S100000_S100000x1_0 bcast_S100000x1_S100000x64_0_1
    bcast_S64_S1x64_1 bcast_S1x64_S100000x64_0_1 hN h64

/-- The result is the combination of layer 2's aggregated messages, its own features, the self-loop coefficients cast to a
    column and the bias cast to a row. -/
theorem layer2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 : (⟨S64, .f32⟩ : BufTy).Contents (Elt Ideal))
    (x6 : (⟨S64x40, .f32⟩ : BufTy).Contents (Elt Ideal)) (x7 : (⟨S40, .f32⟩ : BufTy).Contents (Elt Ideal))
    (hN : S100000.ShapeCasts S100000x1) (h40 : S40.ShapeCasts S1x40) :
    val_main_v127 (F := Ideal) x0 x1 x2 x3 x4 x5 x6 x7
      = combine (A := 100000) (B := 40) (val_main_v119 (F := Ideal) x0 x1 x2 x3 x4 x5 x6) (val_main_v79 (F := Ideal) x0 x1 x2 x3 x4 x5 x6)
          (shapeCast S100000x1 (val_main_v120 (F := Ideal) x1) hN) (shapeCast S1x40 x7 h40) := by
  unfold val_main_v127 val_main_v124 val_main_v123 val_main_v126 val_main_v125 val_main_v122 val_main_v121
  generalize val_main_v119 (F := Ideal) x0 x1 x2 x3 x4 x5 x6 = agg
  generalize val_main_v79 (F := Ideal) x0 x1 x2 x3 x4 x5 x6 = h
  generalize val_main_v120 (F := Ideal) x1 = d
  exact combine_spread (a := 100000) (b := 40) agg h d x7 bcast_S100000_S100000x1_0 bcast_S100000x1_S100000x40_0_1
    bcast_S40_S1x40_1 bcast_S1x40_S100000x40_0_1 hN h40

/-! ## The normalisation between the layers -/

/-- The small constant added to the variances, spread over the 64 columns, reads the constant at every column. -/
theorem eps_read (j : S64.Idx) : val_main_v66 (F := Ideal) j = Ideal.ofBits .f32 0x3727C5AC#32 := by
  unfold val_main_v66 val_main_cst_14
  exact (Cert.LibJoinedRows.bcast_scalar_apply bcast_S_S64 (constant (F := Ideal) S_ .f32 0x3727C5AC#32) j).trans
    (constant_apply _ _)

/-- The zero the activations are clamped at, spread over the table, reads the zero word at every entry. -/
theorem zero_read (i : S100000x64.Idx) : val_main_call0_v0 (F := Ideal) i = Ideal.ofBits .f32 0x00000000#32 := by
  unfold val_main_call0_v0 val_main_call0_cst
  exact (Cert.LibJoinedRows.bcast_scalar_apply bcast_S_S100000x64 (constant (F := Ideal) S_ .f32 0x00000000#32) i).trans
    (constant_apply _ _)

/-- The normalised and clamped activations are normRelu of layer 1's output, its column means and variances cast to rows,
    and the scale and shift cast to rows. -/
theorem norm_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 : (⟨S64, .f32⟩ : BufTy).Contents (Elt Ideal))
    (h64 : S64.ShapeCasts S1x64) :
    val_main_v78 (F := Ideal) x0 x1 x2 x3 x4 x5
      = normRelu (A := 100000) (B := 64) (val_main_v52 (F := Ideal) x0 x1 x2 x3)
          (shapeCast S1x64 (val_main_v55 (F := Ideal) x0 x1 x2 x3) h64) (shapeCast S1x64 (val_main_v62 (F := Ideal) x0 x1 x2 x3) h64)
          (shapeCast S1x64 x4 h64) (shapeCast S1x64 x5 h64) (Ideal.ofBits .f32 0x3727C5AC#32) := by
  unfold val_main_v78 val_main_v77 val_main_v76 val_main_v75 val_main_v74 val_main_v73 val_main_v72 val_main_v71
    val_main_v70 val_main_v69 val_main_v68 val_main_v67 val_main_v65 val_main_v64 val_main_v63
  generalize val_main_v52 (F := Ideal) x0 x1 x2 x3 = x
  generalize val_main_v55 (F := Ideal) x0 x1 x2 x3 = mean
  generalize val_main_v62 (F := Ideal) x0 x1 x2 x3 = var
  exact normRelu_spread (a := 100000) (b := 64) x mean var x4 x5 (val_main_v66 (F := Ideal)) (val_main_call0_v0 (F := Ideal))
    (Ideal.ofBits .f32 0x3727C5AC#32) bcast_S64_S1x64_1 bcast_S1x64_S100000x64_0_1 h64 eps_read zero_read

/-! ## A cast to a one-row array is the broadcast to one -/

/-- A vector [64] cast to a one-row array is the same array as the vector broadcast to a one-row array. -/
theorem cast_row_eq_bcast_row {α : Type} (v : S64.Idx → α) (h64 : S64.ShapeCasts S1x64) :
    shapeCast S1x64 v h64 = broadcastInDim S1x64 ![1] bcast_S64_S1x64_1 v := by
  funext i
  obtain ⟨u, j, rfl⟩ : ∃ (u : Fin 1) (j : Fin 64), i = ix2 u j := ⟨i 0, i 1, eq_ix2 i⟩
  exact (Cert.LibRowLayout.shapeCast_b_1b_apply v h64 u j).trans (Cert.LibRowBcast.bcast_vec_row_apply bcast_S64_S1x64_1 v u j).symm

end Cert.ReferenceIdeal.RefValue

end
-- ==== Proof.KernelValue.lean ====
/-
  The kernel program's buffers, boundary by boundary, as the reference's stages of the argument arrays.

  @main of the kernel program alternates stretches of host operations with five regions. The generated frame keeps the
  contents of every buffer at each boundary as a fold from the launch memory (`Gen.W0` … `Gen.W9`): a stretch rewrites
  the buffers its operations write, a region rewrites its output array to what its write-backs leave. This module reads
  that fold at the few buffers something later consumes — the edge sources and targets, the per-edge and self-loop
  coefficients, each layer's transformed features, aggregated messages and output, the column means and variances, the
  casts of the bias, scale and shift vectors — and shows that each holds the reference program's stage of the same name
  (the generated `val_main_vN`, a function of the argument arrays), up to the cast of a vector to a one-row or
  one-column array where the reference broadcasts it instead.

  A host stretch of the kernel program is the same list of operations, over the same operands, as the matching stretch
  of the reference, so its read is closed by unfolding the reference's stage definitions. A region's output array is
  one entrywise function of its input arrays (the tile modules) and the reference's stage is the same function of the
  same stages (the reference-stage module). Two places differ in spelling only: the kernel program computes the
  variance about the mean ROW spread down the rows where the reference spreads the mean VECTOR made a row (the same
  array), and it reuses the first layer's degree normalisation where the reference computes it again (the same term).
  The last boundary's contents at the result buffer are the reference's last stage: `result_eq`.
-/
import proofs.«122838_j80676665688552_1_alg».proof.Proof.Gen.KernelIdeal.Frame
import proofs.«122838_j80676665688552_1_alg».proof.Proof.Gen.ReferenceIdeal.Read
import proofs.«122838_j80676665688552_1_alg».proof.Proof.LibGcnLayer
import proofs.«122838_j80676665688552_1_alg».proof.Proof.LibKeeps
import proofs.«122838_j80676665688552_1_alg».proof.Proof.TileDense
import proofs.«122838_j80676665688552_1_alg».proof.Proof.TileCombine
import proofs.«122838_j80676665688552_1_alg».proof.Proof.TileNorm
import proofs.«122838_j80676665688552_1_alg».proof.Proof.RefStages
import Idealize.ShloMosaic.Lib.StableHlo.Run
import Idealize.ShloMosaic.Lib.Pipeline.Value

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo
open Cert.ReferenceIdeal.Read

/-! ## The host stretches, read over any contents

Each stretch of host operations is read as a function of the contents `V` it starts from: the buffer a later region or
stretch consumes holds the named stage of the reference, provided the buffers the stretch itself consumes do. -/

section Host

variable (V : Valuation τ sig (Elt Ideal))

/-- The first stretch: the edge sources. -/
theorem host0_src : after (hostOps0 (F := Ideal)) V (Proc.devRef .tc main_v1) = val_main_v1 (F := Ideal) (V (Proc.devRef .tc main_arg1)) := by
  simp only [hostOps0]; after_results_simp; rfl

/-- The edge targets. -/
theorem host0_dst : after (hostOps0 (F := Ideal)) V (Proc.devRef .tc main_v3) = val_main_v3 (F := Ideal) (V (Proc.devRef .tc main_arg1)) := by
  simp only [hostOps0]; after_results_simp; rfl

/-- The per-edge coefficients dinv[src] · dinv[dst], as a column. -/
theorem host0_coef : after (hostOps0 (F := Ideal)) V (Proc.devRef .tc main_v31) = val_main_v39 (F := Ideal) (V (Proc.devRef .tc main_arg1)) := by
  simp only [hostOps0]; after_results_simp; rfl

/-- The self-loop coefficients dinv · dinv, cast to a column. -/
theorem host0_self : after (hostOps0 (F := Ideal)) V (Proc.devRef .tc main_v33)
    = shapeCast S100000x1 (val_main_v45 (F := Ideal) (V (Proc.devRef .tc main_arg1))) shapeCasts_S100000_S100000x1 := by
  simp only [hostOps0]; after_results_simp; rfl

/-- A buffer of argument k is not written by the first stretch. -/
theorem host0_keep_arg0 : after (hostOps0 (F := Ideal)) V (Proc.devRef .tc main_arg0) = V (Proc.devRef .tc main_arg0) := by keeps_host hostOps0
theorem host0_keep_arg2 : after (hostOps0 (F := Ideal)) V (Proc.devRef .tc main_arg2) = V (Proc.devRef .tc main_arg2) := by keeps_host hostOps0
theorem host0_keep_arg3 : after (hostOps0 (F := Ideal)) V (Proc.devRef .tc main_arg3) = V (Proc.devRef .tc main_arg3) := by keeps_host hostOps0
theorem host0_keep_arg4 : after (hostOps0 (F := Ideal)) V (Proc.devRef .tc main_arg4) = V (Proc.devRef .tc main_arg4) := by keeps_host hostOps0
theorem host0_keep_arg5 : after (hostOps0 (F := Ideal)) V (Proc.devRef .tc main_arg5) = V (Proc.devRef .tc main_arg5) := by keeps_host hostOps0
theorem host0_keep_arg6 : after (hostOps0 (F := Ideal)) V (Proc.devRef .tc main_arg6) = V (Proc.devRef .tc main_arg6) := by keeps_host hostOps0
theorem host0_keep_arg7 : after (hostOps0 (F := Ideal)) V (Proc.devRef .tc main_arg7) = V (Proc.devRef .tc main_arg7) := by keeps_host hostOps0

/-! The second stretch: layer 1's aggregated messages (gather of the transformed features by source, scaled by the edge
coefficient, summed into the targets) and the bias cast to a row. -/

theorem host1_agg (x0 : (⟨S100000x128, .f32⟩ : BufTy).Contents (Elt Ideal)) (x1 : (⟨S2x1600000, .i32⟩ : BufTy).Contents (Elt Ideal))
    (x2 : (⟨S128x64, .f32⟩ : BufTy).Contents (Elt Ideal))
    (h34 : V (Proc.devRef .tc main_v34) = val_main_v4 (F := Ideal) x0 x2)
    (h1 : V (Proc.devRef .tc main_v1) = val_main_v1 (F := Ideal) x1)
    (h3 : V (Proc.devRef .tc main_v3) = val_main_v3 (F := Ideal) x1)
    (h31 : V (Proc.devRef .tc main_v31) = val_main_v39 (F := Ideal) x1) :
    after (hostOps1 (F := Ideal)) V (Proc.devRef .tc main_v46) = val_main_v44 (F := Ideal) x0 x1 x2 := by
  simp only [hostOps1]; after_results_simp
  rw [h34, h1, h3, h31]
  rfl

theorem host1_bias : after (hostOps1 (F := Ideal)) V (Proc.devRef .tc main_v47)
    = shapeCast S1x64 (V (Proc.devRef .tc main_arg3)) shapeCasts_S64_S1x64 := by
  simp only [hostOps1]; after_results_simp; rfl

theorem host1_keep_v34 : after (hostOps1 (F := Ideal)) V (Proc.devRef .tc main_v34) = V (Proc.devRef .tc main_v34) := by keeps_host hostOps1
theorem host1_keep_v33 : after (hostOps1 (F := Ideal)) V (Proc.devRef .tc main_v33) = V (Proc.devRef .tc main_v33) := by keeps_host hostOps1
theorem host1_keep_v31 : after (hostOps1 (F := Ideal)) V (Proc.devRef .tc main_v31) = V (Proc.devRef .tc main_v31) := by keeps_host hostOps1
theorem host1_keep_v1 : after (hostOps1 (F := Ideal)) V (Proc.devRef .tc main_v1) = V (Proc.devRef .tc main_v1) := by keeps_host hostOps1
theorem host1_keep_v3 : after (hostOps1 (F := Ideal)) V (Proc.devRef .tc main_v3) = V (Proc.devRef .tc main_v3) := by keeps_host hostOps1
theorem host1_keep_arg4 : after (hostOps1 (F := Ideal)) V (Proc.devRef .tc main_arg4) = V (Proc.devRef .tc main_arg4) := by keeps_host hostOps1
theorem host1_keep_arg5 : after (hostOps1 (F := Ideal)) V (Proc.devRef .tc main_arg5) = V (Proc.devRef .tc main_arg5) := by keeps_host hostOps1
theorem host1_keep_arg6 : after (hostOps1 (F := Ideal)) V (Proc.devRef .tc main_arg6) = V (Proc.devRef .tc main_arg6) := by keeps_host hostOps1
theorem host1_keep_arg7 : after (hostOps1 (F := Ideal)) V (Proc.devRef .tc main_arg7) = V (Proc.devRef .tc main_arg7) := by keeps_host hostOps1

/-! The third stretch: the column means and variances of layer 1's output, and the scale and shift, each cast to a row.
The variance is taken about the mean ROW spread down the columns; the reference spreads the mean VECTOR made a row, the
same array. -/

theorem host2_mean (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal))
    (h48 : V (Proc.devRef .tc main_v48) = val_main_v52 (F := Ideal) x0 x1 x2 x3) :
    after (hostOps2 (F := Ideal)) V (Proc.devRef .tc main_v52)
      = shapeCast S1x64 (val_main_v55 (F := Ideal) x0 x1 x2 x3) shapeCasts_S64_S1x64 := by
  simp only [hostOps2]; after_results_simp
  rw [h48]
  rfl

theorem host2_var (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal))
    (h48 : V (Proc.devRef .tc main_v48) = val_main_v52 (F := Ideal) x0 x1 x2 x3) :
    after (hostOps2 (F := Ideal)) V (Proc.devRef .tc main_v59)
      = shapeCast S1x64 (val_main_v62 (F := Ideal) x0 x1 x2 x3) shapeCasts_S64_S1x64 := by
  simp only [hostOps2]; after_results_simp
  rw [h48]
  refine congrArg (fun v => shapeCast S1x64 v shapeCasts_S64_S1x64) ?_
  let f : FVec Ideal S1x64 .f32 → FVec Ideal S64 .f32 := fun r =>
    Host.divf (Host.reduceAdd
        (mulf (subf (val_main_v52 (F := Ideal) x0 x1 x2 x3) (broadcastInDim S100000x64 ![0, 1] bcast_S1x64_S100000x64_0_1 r))
              (subf (val_main_v52 (F := Ideal) x0 x1 x2 x3) (broadcastInDim S100000x64 ![0, 1] bcast_S1x64_S100000x64_0_1 r)))
        (constant S_ .f32 0x00000000#32) reducesTo_S100000x64_S64_d0 h_S_)
      (broadcastInDim S64 ![] bcast_S_S64 (constant S_ .f32 0x47C35000#32))
  show f (shapeCast S1x64 (val_main_v55 (F := Ideal) x0 x1 x2 x3) shapeCasts_S64_S1x64) = f (val_main_v56 (F := Ideal) x0 x1 x2 x3)
  exact congrArg f (Cert.ReferenceIdeal.RefValue.cast_row_eq_bcast_row _ _)

theorem host2_gamma : after (hostOps2 (F := Ideal)) V (Proc.devRef .tc main_v60)
    = shapeCast S1x64 (V (Proc.devRef .tc main_arg4)) shapeCasts_S64_S1x64 := by
  simp only [hostOps2]; after_results_simp; rfl
theorem host2_beta : after (hostOps2 (F := Ideal)) V (Proc.devRef .tc main_v61)
    = shapeCast S1x64 (V (Proc.devRef .tc main_arg5)) shapeCasts_S64_S1x64 := by
  simp only [hostOps2]; after_results_simp; rfl

theorem host2_keep_v48 : after (hostOps2 (F := Ideal)) V (Proc.devRef .tc main_v48) = V (Proc.devRef .tc main_v48) := by keeps_host hostOps2
theorem host2_keep_v33 : after (hostOps2 (F := Ideal)) V (Proc.devRef .tc main_v33) = V (Proc.devRef .tc main_v33) := by keeps_host hostOps2
theorem host2_keep_v31 : after (hostOps2 (F := Ideal)) V (Proc.devRef .tc main_v31) = V (Proc.devRef .tc main_v31) := by keeps_host hostOps2
theorem host2_keep_v1 : after (hostOps2 (F := Ideal)) V (Proc.devRef .tc main_v1) = V (Proc.devRef .tc main_v1) := by keeps_host hostOps2
theorem host2_keep_v3 : after (hostOps2 (F := Ideal)) V (Proc.devRef .tc main_v3) = V (Proc.devRef .tc main_v3) := by keeps_host hostOps2
theorem host2_keep_arg6 : after (hostOps2 (F := Ideal)) V (Proc.devRef .tc main_arg6) = V (Proc.devRef .tc main_arg6) := by keeps_host hostOps2
theorem host2_keep_arg7 : after (hostOps2 (F := Ideal)) V (Proc.devRef .tc main_arg7) = V (Proc.devRef .tc main_arg7) := by keeps_host hostOps2

/-! The last stretch: layer 2's aggregated messages and its bias cast to a row. The reference computes the degrees a
second time for this layer; the kernel reuses the first layer's, which are the same terms. -/

theorem host4_agg (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 : (⟨S64, .f32⟩ : BufTy).Contents (Elt Ideal))
    (x6 : (⟨S64x40, .f32⟩ : BufTy).Contents (Elt Ideal))
    (h63 : V (Proc.devRef .tc main_v63) = val_main_v79 (F := Ideal) x0 x1 x2 x3 x4 x5 x6)
    (h1 : V (Proc.devRef .tc main_v1) = val_main_v1 (F := Ideal) x1)
    (h3 : V (Proc.devRef .tc main_v3) = val_main_v3 (F := Ideal) x1)
    (h31 : V (Proc.devRef .tc main_v31) = val_main_v39 (F := Ideal) x1) :
    after (hostOps4 (F := Ideal)) V (Proc.devRef .tc main_v75) = val_main_v119 (F := Ideal) x0 x1 x2 x3 x4 x5 x6 := by
  simp only [hostOps4]; after_results_simp
  rw [h63, h1, h3, h31]
  rfl

theorem host4_bias : after (hostOps4 (F := Ideal)) V (Proc.devRef .tc main_v76)
    = shapeCast S1x40 (V (Proc.devRef .tc main_arg7)) shapeCasts_S40_S1x40 := by
  simp only [hostOps4]; after_results_simp; rfl

theorem host4_keep_v63 : after (hostOps4 (F := Ideal)) V (Proc.devRef .tc main_v63) = V (Proc.devRef .tc main_v63) := by keeps_host hostOps4
theorem host4_keep_v33 : after (hostOps4 (F := Ideal)) V (Proc.devRef .tc main_v33) = V (Proc.devRef .tc main_v33) := by keeps_host hostOps4

end Host

/-! ## The buffers at each boundary of @main

From the launch memory, boundary by boundary: after a stretch of host operations, after a region. At each boundary the
buffers that something later consumes hold the named stages of the reference, as functions of the argument arrays. -/

section Boundaries

open Cert.LibGcnLayer Cert.ReferenceIdeal.RefValue Cert.KernelIdeal.Tiles

variable (m : (ℓ : Loc nD τ sig) → Buf (Elt Ideal) ℓ) (ρ : Dev nD → PrngReg) (c : Dev nD)

/-- The argument arrays as launched. -/
abbrev a0 : (⟨S100000x128, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S128x64, .f32⟩ : BufTy).Contents (Elt Ideal) := m ((c : Thread nD τ).loc main_arg2)
abbrev a3 : (⟨S64, .f32⟩ : BufTy).Contents (Elt Ideal) := m ((c : Thread nD τ).loc main_arg3)
abbrev a4 : (⟨S64, .f32⟩ : BufTy).Contents (Elt Ideal) := m ((c : Thread nD τ).loc main_arg4)
abbrev a5 : (⟨S64, .f32⟩ : BufTy).Contents (Elt Ideal) := m ((c : Thread nD τ).loc main_arg5)
abbrev a6 : (⟨S64x40, .f32⟩ : BufTy).Contents (Elt Ideal) := m ((c : Thread nD τ).loc main_arg6)
abbrev a7 : (⟨S40, .f32⟩ : BufTy).Contents (Elt Ideal) := m ((c : Thread nD τ).loc main_arg7)

/-! ### After the first stretch -/

theorem w1_arg0 : W1 m ρ c (Proc.devRef .tc main_arg0) = (a0 m c) := (host0_keep_arg0 (W0 m ρ c)).trans rfl
theorem w1_arg2 : W1 m ρ c (Proc.devRef .tc main_arg2) = (a2 m c) := (host0_keep_arg2 (W0 m ρ c)).trans rfl
theorem w1_arg3 : W1 m ρ c (Proc.devRef .tc main_arg3) = (a3 m c) := (host0_keep_arg3 (W0 m ρ c)).trans rfl
theorem w1_arg4 : W1 m ρ c (Proc.devRef .tc main_arg4) = (a4 m c) := (host0_keep_arg4 (W0 m ρ c)).trans rfl
theorem w1_arg5 : W1 m ρ c (Proc.devRef .tc main_arg5) = (a5 m c) := (host0_keep_arg5 (W0 m ρ c)).trans rfl
theorem w1_arg6 : W1 m ρ c (Proc.devRef .tc main_arg6) = (a6 m c) := (host0_keep_arg6 (W0 m ρ c)).trans rfl
theorem w1_arg7 : W1 m ρ c (Proc.devRef .tc main_arg7) = (a7 m c) := (host0_keep_arg7 (W0 m ρ c)).trans rfl
theorem w1_v1 : W1 m ρ c (Proc.devRef .tc main_v1) = val_main_v1 (F := Ideal) (a1 m c) := host0_src (W0 m ρ c)
theorem w1_v3 : W1 m ρ c (Proc.devRef .tc main_v3) = val_main_v3 (F := Ideal) (a1 m c) := host0_dst (W0 m ρ c)
theorem w1_v31 : W1 m ρ c (Proc.devRef .tc main_v31) = val_main_v39 (F := Ideal) (a1 m c) := host0_coef (W0 m ρ c)
theorem w1_v33 : W1 m ρ c (Proc.devRef .tc main_v33)
    = shapeCast S100000x1 (val_main_v45 (F := Ideal) (a1 m c)) shapeCasts_S100000_S100000x1 := host0_self (W0 m ρ c)

/-! ### After region 0: the transformed features of layer 1 -/

theorem w2_v34 : W2 m ρ c (Proc.devRef .tc main_v34) = val_main_v4 (F := Ideal) (a0 m c) (a2 m c) := by
  rw [dense1_eq]
  refine ((W2_arr m ρ c 2).trans (dense0_array (V1 m ρ) c)).trans ?_
  show matProd (A := 100000) (K := 128) (B := 64) (W1 m ρ c (Proc.devRef .tc main_arg0)) (W1 m ρ c (Proc.devRef .tc main_arg2)) = _
  rw [w1_arg0, w1_arg2]
theorem w2_v1 : W2 m ρ c (Proc.devRef .tc main_v1) = val_main_v1 (F := Ideal) (a1 m c) := (W2_of_ne m ρ c main_v1 (by decide)).trans (w1_v1 m ρ c)
theorem w2_v3 : W2 m ρ c (Proc.devRef .tc main_v3) = val_main_v3 (F := Ideal) (a1 m c) := (W2_of_ne m ρ c main_v3 (by decide)).trans (w1_v3 m ρ c)
theorem w2_v31 : W2 m ρ c (Proc.devRef .tc main_v31) = val_main_v39 (F := Ideal) (a1 m c) := (W2_of_ne m ρ c main_v31 (by decide)).trans (w1_v31 m ρ c)
theorem w2_v33 : W2 m ρ c (Proc.devRef .tc main_v33)
    = shapeCast S100000x1 (val_main_v45 (F := Ideal) (a1 m c)) shapeCasts_S100000_S100000x1 := (W2_of_ne m ρ c main_v33 (by decide)).trans (w1_v33 m ρ c)
theorem w2_arg3 : W2 m ρ c (Proc.devRef .tc main_arg3) = (a3 m c) := (W2_of_ne m ρ c main_arg3 (by decide)).trans (w1_arg3 m ρ c)
theorem w2_arg4 : W2 m ρ c (Proc.devRef .tc main_arg4) = (a4 m c) := (W2_of_ne m ρ c main_arg4 (by decide)).trans (w1_arg4 m ρ c)
theorem w2_arg5 : W2 m ρ c (Proc.devRef .tc main_arg5) = (a5 m c) := (W2_of_ne m ρ c main_arg5 (by decide)).trans (w1_arg5 m ρ c)
theorem w2_arg6 : W2 m ρ c (Proc.devRef .tc main_arg6) = (a6 m c) := (W2_of_ne m ρ c main_arg6 (by decide)).trans (w1_arg6 m ρ c)
theorem w2_arg7 : W2 m ρ c (Proc.devRef .tc main_arg7) = (a7 m c) := (W2_of_ne m ρ c main_arg7 (by decide)).trans (w1_arg7 m ρ c)

/-! ### After the second stretch -/

theorem w3_v46 : W3 m ρ c (Proc.devRef .tc main_v46) = val_main_v44 (F := Ideal) (a0 m c) (a1 m c) (a2 m c) :=
  host1_agg (W2 m ρ c) (a0 m c) (a1 m c) (a2 m c) (w2_v34 m ρ c) (w2_v1 m ρ c) (w2_v3 m ρ c) (w2_v31 m ρ c)
theorem w3_v47 : W3 m ρ c (Proc.devRef .tc main_v47) = shapeCast S1x64 (a3 m c) shapeCasts_S64_S1x64 :=
  (host1_bias (W2 m ρ c)).trans (by rw [w2_arg3])
theorem w3_v34 : W3 m ρ c (Proc.devRef .tc main_v34) = val_main_v4 (F := Ideal) (a0 m c) (a2 m c) := (host1_keep_v34 (W2 m ρ c)).trans (w2_v34 m ρ c)
theorem w3_v33 : W3 m ρ c (Proc.devRef .tc main_v33)
    = shapeCast S100000x1 (val_main_v45 (F := Ideal) (a1 m c)) shapeCasts_S100000_S100000x1 := (host1_keep_v33 (W2 m ρ c)).trans (w2_v33 m ρ c)
theorem w3_v31 : W3 m ρ c (Proc.devRef .tc main_v31) = val_main_v39 (F := Ideal) (a1 m c) := (host1_keep_v31 (W2 m ρ c)).trans (w2_v31 m ρ c)
theorem w3_v1 : W3 m ρ c (Proc.devRef .tc main_v1) = val_main_v1 (F := Ideal) (a1 m c) := (host1_keep_v1 (W2 m ρ c)).trans (w2_v1 m ρ c)
theorem w3_v3 : W3 m ρ c (Proc.devRef .tc main_v3) = val_main_v3 (F := Ideal) (a1 m c) := (host1_keep_v3 (W2 m ρ c)).trans (w2_v3 m ρ c)
theorem w3_arg4 : W3 m ρ c (Proc.devRef .tc main_arg4) = (a4 m c) := (host1_keep_arg4 (W2 m ρ c)).trans (w2_arg4 m ρ c)
theorem w3_arg5 : W3 m ρ c (Proc.devRef .tc main_arg5) = (a5 m c) := (host1_keep_arg5 (W2 m ρ c)).trans (w2_arg5 m ρ c)
theorem w3_arg6 : W3 m ρ c (Proc.devRef .tc main_arg6) = (a6 m c) := (host1_keep_arg6 (W2 m ρ c)).trans (w2_arg6 m ρ c)
theorem w3_arg7 : W3 m ρ c (Proc.devRef .tc main_arg7) = (a7 m c) := (host1_keep_arg7 (W2 m ρ c)).trans (w2_arg7 m ρ c)

/-! ### After region 1: layer 1's output -/

theorem w4_v48 : W4 m ρ c (Proc.devRef .tc main_v48) = val_main_v52 (F := Ideal) (a0 m c) (a1 m c) (a2 m c) (a3 m c) := by
  rw [layer1_eq (a0 m c) (a1 m c) (a2 m c) (a3 m c) shapeCasts_S100000_S100000x1 shapeCasts_S64_S1x64]
  refine ((W4_arr m ρ c 4).trans (combine64_array (V3 m ρ) c)).trans ?_
  show combine (A := 100000) (B := 64) (W3 m ρ c (Proc.devRef .tc main_v46)) (W3 m ρ c (Proc.devRef .tc main_v34))
    (W3 m ρ c (Proc.devRef .tc main_v33)) (W3 m ρ c (Proc.devRef .tc main_v47)) = _
  rw [w3_v46, w3_v34, w3_v33, w3_v47]
theorem w4_v33 : W4 m ρ c (Proc.devRef .tc main_v33)
    = shapeCast S100000x1 (val_main_v45 (F := Ideal) (a1 m c)) shapeCasts_S100000_S100000x1 :=
  ((W4_arr m ρ c 2).trans (((dat1 (V3 m ρ) c).arrAt_in 2 rfl _).trans (A_eq1 (V3 m ρ) c 2))).trans (w3_v33 m ρ c)
theorem w4_v31 : W4 m ρ c (Proc.devRef .tc main_v31) = val_main_v39 (F := Ideal) (a1 m c) := (W4_of_ne m ρ c main_v31 (by decide)).trans (w3_v31 m ρ c)
theorem w4_v1 : W4 m ρ c (Proc.devRef .tc main_v1) = val_main_v1 (F := Ideal) (a1 m c) := (W4_of_ne m ρ c main_v1 (by decide)).trans (w3_v1 m ρ c)
theorem w4_v3 : W4 m ρ c (Proc.devRef .tc main_v3) = val_main_v3 (F := Ideal) (a1 m c) := (W4_of_ne m ρ c main_v3 (by decide)).trans (w3_v3 m ρ c)
theorem w4_arg4 : W4 m ρ c (Proc.devRef .tc main_arg4) = (a4 m c) := (W4_of_ne m ρ c main_arg4 (by decide)).trans (w3_arg4 m ρ c)
theorem w4_arg5 : W4 m ρ c (Proc.devRef .tc main_arg5) = (a5 m c) := (W4_of_ne m ρ c main_arg5 (by decide)).trans (w3_arg5 m ρ c)
theorem w4_arg6 : W4 m ρ c (Proc.devRef .tc main_arg6) = (a6 m c) := (W4_of_ne m ρ c main_arg6 (by decide)).trans (w3_arg6 m ρ c)
theorem w4_arg7 : W4 m ρ c (Proc.devRef .tc main_arg7) = (a7 m c) := (W4_of_ne m ρ c main_arg7 (by decide)).trans (w3_arg7 m ρ c)

/-! ### After the third stretch -/

theorem w5_v52 : W5 m ρ c (Proc.devRef .tc main_v52) = shapeCast S1x64 (val_main_v55 (F := Ideal) (a0 m c) (a1 m c) (a2 m c) (a3 m c)) shapeCasts_S64_S1x64 :=
  host2_mean (W4 m ρ c) (a0 m c) (a1 m c) (a2 m c) (a3 m c) (w4_v48 m ρ c)
theorem w5_v59 : W5 m ρ c (Proc.devRef .tc main_v59) = shapeCast S1x64 (val_main_v62 (F := Ideal) (a0 m c) (a1 m c) (a2 m c) (a3 m c)) shapeCasts_S64_S1x64 :=
  host2_var (W4 m ρ c) (a0 m c) (a1 m c) (a2 m c) (a3 m c) (w4_v48 m ρ c)
theorem w5_v60 : W5 m ρ c (Proc.devRef .tc main_v60) = shapeCast S1x64 (a4 m c) shapeCasts_S64_S1x64 :=
  (host2_gamma (W4 m ρ c)).trans (by rw [w4_arg4])
theorem w5_v61 : W5 m ρ c (Proc.devRef .tc main_v61) = shapeCast S1x64 (a5 m c) shapeCasts_S64_S1x64 :=
  (host2_beta (W4 m ρ c)).trans (by rw [w4_arg5])
theorem w5_v48 : W5 m ρ c (Proc.devRef .tc main_v48) = val_main_v52 (F := Ideal) (a0 m c) (a1 m c) (a2 m c) (a3 m c) := (host2_keep_v48 (W4 m ρ c)).trans (w4_v48 m ρ c)
theorem w5_v33 : W5 m ρ c (Proc.devRef .tc main_v33)
    = shapeCast S100000x1 (val_main_v45 (F := Ideal) (a1 m c)) shapeCasts_S100000_S100000x1 := (host2_keep_v33 (W4 m ρ c)).trans (w4_v33 m ρ c)
theorem w5_v31 : W5 m ρ c (Proc.devRef .tc main_v31) = val_main_v39 (F := Ideal) (a1 m c) := (host2_keep_v31 (W4 m ρ c)).trans (w4_v31 m ρ c)
theorem w5_v1 : W5 m ρ c (Proc.devRef .tc main_v1) = val_main_v1 (F := Ideal) (a1 m c) := (host2_keep_v1 (W4 m ρ c)).trans (w4_v1 m ρ c)
theorem w5_v3 : W5 m ρ c (Proc.devRef .tc main_v3) = val_main_v3 (F := Ideal) (a1 m c) := (host2_keep_v3 (W4 m ρ c)).trans (w4_v3 m ρ c)
theorem w5_arg6 : W5 m ρ c (Proc.devRef .tc main_arg6) = (a6 m c) := (host2_keep_arg6 (W4 m ρ c)).trans (w4_arg6 m ρ c)
theorem w5_arg7 : W5 m ρ c (Proc.devRef .tc main_arg7) = (a7 m c) := (host2_keep_arg7 (W4 m ρ c)).trans (w4_arg7 m ρ c)

/-! ### After region 2: the normalised, clamped activations -/

theorem w6_v62 : W6 m ρ c (Proc.devRef .tc main_v62) = val_main_v78 (F := Ideal) (a0 m c) (a1 m c) (a2 m c) (a3 m c) (a4 m c) (a5 m c) := by
  rw [norm_eq (a0 m c) (a1 m c) (a2 m c) (a3 m c) (a4 m c) (a5 m c) shapeCasts_S64_S1x64]
  refine ((W6_arr m ρ c 5).trans (normRelu_array (V5 m ρ) c)).trans ?_
  show normRelu (A := 100000) (B := 64) (W5 m ρ c (Proc.devRef .tc main_v48)) (W5 m ρ c (Proc.devRef .tc main_v52))
    (W5 m ρ c (Proc.devRef .tc main_v59)) (W5 m ρ c (Proc.devRef .tc main_v60)) (W5 m ρ c (Proc.devRef .tc main_v61))
    (Ideal.ofBits .f32 0x3727C5AC#32) = _
  rw [w5_v48, w5_v52, w5_v59, w5_v60, w5_v61]
theorem w6_v33 : W6 m ρ c (Proc.devRef .tc main_v33)
    = shapeCast S100000x1 (val_main_v45 (F := Ideal) (a1 m c)) shapeCasts_S100000_S100000x1 := (W6_of_ne m ρ c main_v33 (by decide)).trans (w5_v33 m ρ c)
theorem w6_v31 : W6 m ρ c (Proc.devRef .tc main_v31) = val_main_v39 (F := Ideal) (a1 m c) := (W6_of_ne m ρ c main_v31 (by decide)).trans (w5_v31 m ρ c)
theorem w6_v1 : W6 m ρ c (Proc.devRef .tc main_v1) = val_main_v1 (F := Ideal) (a1 m c) := (W6_of_ne m ρ c main_v1 (by decide)).trans (w5_v1 m ρ c)
theorem w6_v3 : W6 m ρ c (Proc.devRef .tc main_v3) = val_main_v3 (F := Ideal) (a1 m c) := (W6_of_ne m ρ c main_v3 (by decide)).trans (w5_v3 m ρ c)
theorem w6_arg6 : W6 m ρ c (Proc.devRef .tc main_arg6) = (a6 m c) := (W6_of_ne m ρ c main_arg6 (by decide)).trans (w5_arg6 m ρ c)
theorem w6_arg7 : W6 m ρ c (Proc.devRef .tc main_arg7) = (a7 m c) := (W6_of_ne m ρ c main_arg7 (by decide)).trans (w5_arg7 m ρ c)

/-! ### After region 3: the transformed features of layer 2 -/

theorem w7_v63 : W7 m ρ c (Proc.devRef .tc main_v63) = val_main_v79 (F := Ideal) (a0 m c) (a1 m c) (a2 m c) (a3 m c) (a4 m c) (a5 m c) (a6 m c) := by
  rw [dense2_eq]
  refine ((W7_arr m ρ c 2).trans (dense3_array (V6 m ρ) c)).trans ?_
  show matProd (A := 100000) (K := 64) (B := 40) (W6 m ρ c (Proc.devRef .tc main_v62)) (W6 m ρ c (Proc.devRef .tc main_arg6)) = _
  rw [w6_v62, w6_arg6]
theorem w7_v33 : W7 m ρ c (Proc.devRef .tc main_v33)
    = shapeCast S100000x1 (val_main_v45 (F := Ideal) (a1 m c)) shapeCasts_S100000_S100000x1 := (W7_of_ne m ρ c main_v33 (by decide)).trans (w6_v33 m ρ c)
theorem w7_v31 : W7 m ρ c (Proc.devRef .tc main_v31) = val_main_v39 (F := Ideal) (a1 m c) := (W7_of_ne m ρ c main_v31 (by decide)).trans (w6_v31 m ρ c)
theorem w7_v1 : W7 m ρ c (Proc.devRef .tc main_v1) = val_main_v1 (F := Ideal) (a1 m c) := (W7_of_ne m ρ c main_v1 (by decide)).trans (w6_v1 m ρ c)
theorem w7_v3 : W7 m ρ c (Proc.devRef .tc main_v3) = val_main_v3 (F := Ideal) (a1 m c) := (W7_of_ne m ρ c main_v3 (by decide)).trans (w6_v3 m ρ c)
theorem w7_arg7 : W7 m ρ c (Proc.devRef .tc main_arg7) = (a7 m c) := (W7_of_ne m ρ c main_arg7 (by decide)).trans (w6_arg7 m ρ c)

/-! ### After the last stretch -/

theorem w8_v75 : W8 m ρ c (Proc.devRef .tc main_v75) = val_main_v119 (F := Ideal) (a0 m c) (a1 m c) (a2 m c) (a3 m c) (a4 m c) (a5 m c) (a6 m c) :=
  host4_agg (W7 m ρ c) (a0 m c) (a1 m c) (a2 m c) (a3 m c) (a4 m c) (a5 m c) (a6 m c) (w7_v63 m ρ c) (w7_v1 m ρ c) (w7_v3 m ρ c) (w7_v31 m ρ c)
theorem w8_v76 : W8 m ρ c (Proc.devRef .tc main_v76) = shapeCast S1x40 (a7 m c) shapeCasts_S40_S1x40 :=
  (host4_bias (W7 m ρ c)).trans (by rw [w7_arg7])
theorem w8_v63 : W8 m ρ c (Proc.devRef .tc main_v63) = val_main_v79 (F := Ideal) (a0 m c) (a1 m c) (a2 m c) (a3 m c) (a4 m c) (a5 m c) (a6 m c) := (host4_keep_v63 (W7 m ρ c)).trans (w7_v63 m ρ c)
theorem w8_v33 : W8 m ρ c (Proc.devRef .tc main_v33)
    = shapeCast S100000x1 (val_main_v45 (F := Ideal) (a1 m c)) shapeCasts_S100000_S100000x1 := (host4_keep_v33 (W7 m ρ c)).trans (w7_v33 m ρ c)

/-! ### After region 4: the result -/

/-- The kernel's result array ends holding the reference's last stage of the argument arrays. The reference's second
    computation of the self-loop coefficients is the first one's term. -/
theorem result_eq : W9 m ρ c (Proc.devRef .tc main_v77) = val_main_v127 (F := Ideal) (a0 m c) (a1 m c) (a2 m c) (a3 m c) (a4 m c) (a5 m c) (a6 m c) (a7 m c) := by
  rw [layer2_eq (a0 m c) (a1 m c) (a2 m c) (a3 m c) (a4 m c) (a5 m c) (a6 m c) (a7 m c) shapeCasts_S100000_S100000x1 shapeCasts_S40_S1x40]
  refine ((W9_arr m ρ c 4).trans (combine40_array (V8 m ρ) c)).trans ?_
  show combine (A := 100000) (B := 40) (W8 m ρ c (Proc.devRef .tc main_v75)) (W8 m ρ c (Proc.devRef .tc main_v63))
    (W8 m ρ c (Proc.devRef .tc main_v33)) (W8 m ρ c (Proc.devRef .tc main_v76)) = _
  rw [w8_v75, w8_v63, w8_v33, w8_v76]
  rfl

end Boundaries

end Cert.KernelIdeal.RunValue

end
-- ==== Proof.lean ====
/-
  The certificate of a two-layer graph convolution with batch normalisation: the kernel program against its reference.

  Both programs compute, from node features x, an edge list and the layers' weights, the same function: the degree
  normalisation dinv = rsqrt(degree + 1) from the edge targets; layer 1, out1 = (Σ over edges into a node of
  dinv[src]·dinv[dst]·(x·W1)[src]) + (x·W1)·dinv² + b1; batch normalisation of out1 by its column means and biased
  column variances, scale gamma and shift beta, then the maximum with zero; and layer 2 on the result with W2 and b2. The reference is
  one host program. The kernel program runs the gathers, scatters and column statistics on the host too, and five
  regions on the device: the two matrix products, the two combinations "aggregated + own·self-coefficient + bias", and
  the normalisation with its maximum. Each region handles the rows in ten blocks of 10000.

  On the extended reals every operation is exact and the roundings to a shorter float format inside the matrix products
  are the identity, so the two programs are the same composition of the same operations in the same grouping; no
  algebraic law and no finiteness of the inputs is needed. The proof shows that each region leaves its output array
  holding one entrywise function of its input arrays (a matrix product, a combination, a normalisation), that the
  reference's corresponding stages are the same functions, and follows the kernel program's buffers from the launch to
  the return, boundary by boundary, each holding the reference's stage of the argument arrays.

  The three frames are the generated ones (the reference's is its generated run with the result dropped); the
  idealization rewrote no operation, so that claim is trivial.
-/
import proofs.«122838_j80676665688552_1_alg».proof.Defs
import proofs.«122838_j80676665688552_1_alg».proof.Proof.Gen.Kernel
import proofs.«122838_j80676665688552_1_alg».proof.Proof.Gen.Kernel.Skeleton
import proofs.«122838_j80676665688552_1_alg».proof.Proof.Gen.Kernel.Launch
import proofs.«122838_j80676665688552_1_alg».proof.Proof.Gen.Kernel.Points
import proofs.«122838_j80676665688552_1_alg».proof.Proof.Gen.Kernel.Frame
import proofs.«122838_j80676665688552_1_alg».proof.Proof.Gen.KernelIdeal
import proofs.«122838_j80676665688552_1_alg».proof.Proof.Gen.KernelIdeal.Skeleton
import proofs.«122838_j80676665688552_1_alg».proof.Proof.Gen.KernelIdeal.Launch
import proofs.«122838_j80676665688552_1_alg».proof.Proof.Gen.KernelIdeal.Points
import proofs.«122838_j80676665688552_1_alg».proof.Proof.Gen.KernelIdeal.Frame
import proofs.«122838_j80676665688552_1_alg».proof.Proof.Gen.ReferenceIdeal
import proofs.«122838_j80676665688552_1_alg».proof.Proof.Gen.ReferenceIdeal.Run
import proofs.«122838_j80676665688552_1_alg».proof.Proof.Gen.ReferenceIdeal.Read
import proofs.«122838_j80676665688552_1_alg».proof.Proof.Gen.Pre_finite_inputs
import proofs.«122838_j80676665688552_1_alg».proof.Proof.KernelRun
import proofs.«122838_j80676665688552_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the reference's last stage of
    the argument arrays: the kernel program by following its buffers through its segments, the reference by its
    generated run. -/
theorem algebraic : Cert.algebraic_KernelIdeal_ReferenceIdeal := by
  intro m ρ m' ρ' _ hagree
  refine ⟨fun c => Cert.ReferenceIdeal.Read.val_main_v127 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.RunValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v127_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
